-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S64x4096x256 .f32) (main_arg1 : FVec F S256x256 .f32) (main_arg2 : FVec F S256 .f32) (main_arg3 : FVec F S256x1 .f32) (main_arg4 : FVec F S1 .f32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_v13 main_v16
-- ==== Kernel.lean ====
abbrev S64x4096x256 : Shape := ⟨3, ![64, 4096, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S64x256 : Shape := ⟨2, ![64, 256]⟩
abbrev S16x512x256 : Shape := ⟨3, ![16, 512, 256]⟩
abbrev S16x256 : Shape := ⟨2, ![16, 256]⟩
abbrev S16x1 : Shape := ⟨2, ![16, 1]⟩
abbrev S16x256x256 : Shape := ⟨3, ![16, 256, 256]⟩
abbrev S4096x256 : Shape := ⟨2, ![4096, 256]⟩
abbrev S1x256 : Shape := ⟨2, ![1, 256]⟩
abbrev S1x1x256 : Shape := ⟨3, ![1, 1, 256]⟩
abbrev S1x1 : Shape := ⟨2, ![1, 1]⟩
abbrev S16 : Shape := ⟨1, ![16]⟩
abbrev S16x256x1 : Shape := ⟨3, ![16, 256, 1]⟩

abbrev nBuf : Space → Nat
  | .hbm => 6
  | .vmem => 11
  | .smem => 0
  | _ => 0

abbrev bufTy : (tb : Table) → Fin (tcTables nBuf tb) → BufTy
  | .hbm, ⟨0, _⟩ => ⟨S64x4096x256, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S64x256, .f32⟩
  | .local _ .vmem, ⟨0, _⟩ => ⟨S16x512x256, .f32⟩
  | .local _ .vmem, ⟨1, _⟩ => ⟨S16x512x256, .f32⟩
  | .local _ .vmem, ⟨2, _⟩ => ⟨S256x256, .f32⟩
  | .local _ .vmem, ⟨3, _⟩ => ⟨S256, .f32⟩
  | .local _ .vmem, ⟨4, _⟩ => ⟨S256x1, .f32⟩
  | .local _ .vmem, ⟨5, _⟩ => ⟨S1, .f32⟩
  | .local _ .vmem, ⟨6, _⟩ => ⟨S16x256, .f32⟩
  | .local _ .vmem, ⟨7, _⟩ => ⟨S16x256, .f32⟩
  | .local _ .vmem, ⟨8, _⟩ => ⟨S16x1, .f32⟩
  | .local _ .vmem, ⟨9, _⟩ => ⟨S16x1, .f32⟩
  | .local _ .vmem, ⟨10, _⟩ => ⟨S16x256, .f32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def k0_mult1 : BitVec 32 :=
  let c0_i32_6 : BitVec 32 := 0#32
  let c256_i32 : BitVec 32 := 256#32
  let v9 : BitVec 32 := Scalar.muli c0_i32_6 c256_i32
  v9
def k0_off1 (c0_i32_6 : BitVec 32) : Fin 3 → Nat :=
  let c0_7 : Index := 0#32
  let c256_i32 : BitVec 32 := 256#32
  let v9 : BitVec 32 := Scalar.muli c0_i32_6 c256_i32
  let v10 : BitVec 32 := v9
  let v11 : Index := Scalar.indexCast v10
  let c0_8 : Index := 0#32
  ![0, v11.toNat, 0]
def k0_mult2 : BitVec 32 :=
  let c1_i32 : BitVec 32 := 1#32
  let c256_i32_27 : BitVec 32 := 256#32
  let v60 : BitVec 32 := Scalar.muli c1_i32 c256_i32_27
  v60
def k0_cond2 (i : grid0.Coords) : BitVec 1 :=
  let arg1 : BitVec 32 := BitVec.ofNat 32 (i 1).val
  let c7_i32 : BitVec 32 := 7#32
  let v111 : BitVec 1 := Scalar.cmpi .eq arg1 c7_i32
  let v112 : BitVec 32 := Scalar.extui v111
  let c0_i32_49 : BitVec 32 := 0#32
  let v113 : BitVec 1 := Scalar.cmpi .ne v112 c0_i32_49
  v113

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S256_S256_0 : ∀ a, (![0] : Fin 1 → Nat) a + S256.size a ≤ S256.size a
  h_S256 : 0 < S256.numel
  inb_S256x1_S256x1_0_0 : ∀ a, (![0, 0] : Fin 2 → Nat) a + S256x1.size a ≤ S256x1.size a
  h_S256x1 : 0 < S256x1.numel
  shapeCasts_S256x1_S256 : S256x1.ShapeCasts S256
  inb_S1_S1_0 : ∀ a, (![0] : Fin 1 → Nat) a + S1.size a ≤ S1.size a
  h_S1 : 0 < S1.numel
  h_S16x256x256 : 0 < S16x256x256.numel
  shapeCasts_S16x256x256_S4096x256 : S16x256x256.ShapeCasts S4096x256
  shapeCasts_S256_S1x256 : S256.ShapeCasts S1x256
  broadcasts_S1x256_S4096x256 : S1x256.Broadcasts S4096x256
  shapeCasts_S4096x256_S16x256x256 : S4096x256.ShapeCasts S16x256x256
  shapeCasts_S256_S1x1x256 : S256.ShapeCasts S1x1x256
  broadcasts_S1x1x256_S16x256x256 : S1x1x256.Broadcasts S16x256x256
  reduces_S16x256x256_S16x256 : S16x256x256.Reduces [2] S16x256
  shapeCasts_S1_S1x1 : S1.ShapeCasts S1x1
  broadcasts_S1x1_S16x256 : S1x1.Broadcasts S16x256
  reduces_S16x256_S16 : S16x256.Reduces [1] S16
  shapeCasts_S16_S16x1 : S16.ShapeCasts S16x1
  broadcasts_S16x1_S16x256 : S16x1.Broadcasts S16x256
  shapeCasts_S16x256_S16x256x1 : S16x256.ShapeCasts S16x256x1
  broadcasts_S16x256x1_S16x256x256 : S16x256x1.Broadcasts S16x256x256
  reduces_S16x256x256_S16x256_2 : S16x256x256.Reduces [1] S16x256
  dot_S4096x256_S256x256_S4096x256_1_0_0_1_n_n_wf : DotDims.WF S4096x256 S256x256 S4096x256 [1] [0] [0] [1] [] []
  hrank0 : 0 < grid0.rank
  k0_mult1_dvd : 256 ∣ k0_mult1.toNat
  k0_off1_inb : ∀ (r : Fin 2), ∀ a, (k0_off1 (BitVec.ofNat 32 r.val)) a + S16x256x256.size a ≤ S16x512x256.size a
  k0_mult2_dvd : 256 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x256.size a ≤ S64x4096x256.size a
  hwx0_0 : ∀ i : grid0.Coords, EltTy.bits .f32 = 32 ∨ (Rect.block (s := S64x4096x256) S16x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S64x256.size a
  hwx0_5 : ∀ i : grid0.Coords, EltTy.bits .f32 = 32 ∨ (Rect.block (s := S64x256) S16x256.size (cc0_transform_5 i) (hinb0_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S16x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S16x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S64x4096x256 : Shape := ⟨3, ![64, 4096, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1x256 : Shape := ⟨3, ![1, 1, 256]⟩
abbrev S64x4096x1 : Shape := ⟨3, ![64, 4096, 1]⟩
abbrev S1x1x1 : Shape := ⟨3, ![1, 1, 1]⟩
abbrev S_ : Shape := ⟨0, ![]⟩
abbrev S64x1 : Shape := ⟨2, ![64, 1]⟩
abbrev S64x1x1 : Shape := ⟨3, ![64, 1, 1]⟩
abbrev S64x256 : Shape := ⟨2, ![64, 256]⟩

abbrev nBuf : Space → Nat
  | .hbm => 32
  | .vmem => 0
  | .smem => 0
  | _ => 0

abbrev bufTy : (tb : Table) → Fin (tcTables nBuf tb) → BufTy
  | .hbm, ⟨0, _⟩ => ⟨S64x4096x256, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S64x4096x256, .f32⟩
  | .hbm, ⟨6, _⟩ => ⟨S1x1x256, .f32⟩
  | .hbm, ⟨7, _⟩ => ⟨S64x4096x256, .f32⟩
  | .hbm, ⟨8, _⟩ => ⟨S64x4096x256, .f32⟩
  | .hbm, ⟨9, _⟩ => ⟨S64x4096x256, .f32⟩
  | .hbm, ⟨10, _⟩ => ⟨S64x4096x1, .f32⟩
  | .hbm, ⟨11, _⟩ => ⟨S1x1x1, .f32⟩
  | .hbm, ⟨12, _⟩ => ⟨S64x4096x1, .f32⟩
  | .hbm, ⟨13, _⟩ => ⟨S64x4096x1, .f32⟩
  | .hbm, ⟨14, _⟩ => ⟨S_, .f32⟩
  | .hbm, ⟨15, _⟩ => ⟨S64x1, .f32⟩
  | .hbm, ⟨16, _⟩ => ⟨S_, .f32⟩
  | .hbm, ⟨17, _⟩ => ⟨S64x1, .f32⟩
  | .hbm, ⟨18, _⟩ => ⟨S64x1, .f32⟩
  | .hbm, ⟨19, _⟩ => ⟨S64x1x1, .f32⟩
  | .hbm, ⟨20, _⟩ => ⟨S64x4096x1, .f32⟩
  | .hbm, ⟨21, _⟩ => ⟨S64x4096x1, .f32⟩
  | .hbm, ⟨22, _⟩ => ⟨S64x4096x1, .f32⟩
  | .hbm, ⟨23, _⟩ => ⟨S_, .f32⟩
  | .hbm, ⟨24, _⟩ => ⟨S64x1, .f32⟩
  | .hbm, ⟨25, _⟩ => ⟨S64x1x1, .f32⟩
  | .hbm, ⟨26, _⟩ => ⟨S64x4096x1, .f32⟩
  | .hbm, ⟨27, _⟩ => ⟨S64x4096x1, .f32⟩
  | .hbm, ⟨28, _⟩ => ⟨S64x4096x256, .f32⟩
  | .hbm, ⟨29, _⟩ => ⟨S64x4096x256, .f32⟩
  | .hbm, ⟨30, _⟩ => ⟨S_, .f32⟩
  | .hbm, ⟨31, _⟩ => ⟨S64x256, .f32⟩
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S64x4096x256_0_1_2 : S1x1x256.BroadcastsInDim S64x4096x256 (![0, 1, 2] : Fin 3 → Fin S64x4096x256.rank)
  bcast_S1_S1x1x1_2 : S1.BroadcastsInDim S1x1x1 (![2] : Fin 1 → Fin S1x1x1.rank)
  bcast_S1x1x1_S64x4096x1_0_1_2 : S1x1x1.BroadcastsInDim S64x4096x1 (![0, 1, 2] : Fin 3 → Fin S64x4096x1.rank)
  reducesTo_S64x4096x1_S64x1_d1 : S64x4096x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x4096x1_0_1_2 : S64x1x1.BroadcastsInDim S64x4096x1 (![0, 1, 2] : Fin 3 → Fin S64x4096x1.rank)
  bcast_S64x4096x1_S64x4096x256_0_1_2 : S64x4096x1.BroadcastsInDim S64x4096x256 (![0, 1, 2] : Fin 3 → Fin S64x4096x256.rank)
  reducesTo_S64x4096x256_S64x256_d1 : S64x4096x256.ReducesTo [1] S64x256
  dot_S64x4096x256_S256x256_S64x4096x256_2_0_01_1_n_n_wf : DotDims.WF S64x4096x256 S256x256 S64x4096x256 [2] [0] [0, 1] [1] [] []
  dot_S64x4096x256_S256x1_S64x4096x1_2_0_01_1_n_n_wf : DotDims.WF S64x4096x256 S256x1 S64x4096x1 [2] [0] [0, 1] [1] [] []

variable [Facts₀]

def dot_S64x4096x256_S256x256_S64x4096x256_2_0_01_1_n_n : DotDims S64x4096x256 S256x256 S64x4096x256 where
  lhsContracting := [2]
  rhsContracting := [0]
  lhsNonContracting := [0, 1]
  rhsNonContracting := [1]
  lhsBatch := []
  rhsBatch := []
  wf := dot_S64x4096x256_S256x256_S64x4096x256_2_0_01_1_n_n_wf
def dot_S64x4096x256_S256x1_S64x4096x1_2_0_01_1_n_n : DotDims S64x4096x256 S256x1 S64x4096x1 where
  lhsContracting := [2]
  rhsContracting := [0]
  lhsNonContracting := [0, 1]
  rhsNonContracting := [1]
  lhsBatch := []
  rhsBatch := []
  wf := dot_S64x4096x256_S256x1_S64x4096x1_2_0_01_1_n_n_wf

class Facts : Prop extends Facts₀ where

variable [Facts]
-- ==== Proof.Body.lean ====
/-
  The kernel body as pure functions of its loads.

  One grid point consumes a time tile of 512 steps as two chunks of 256. A chunk `xc` (16 rows × 256 steps × 256
  features), with the dense layer's weights, gives the chunk's scores; from the running maximum `m`, normaliser `l` and
  accumulator `a` the chunk's step is
      m' = max m (row maximum of the scores),   α = exp (m - m'),   p = exp (scores - m'),
      l' = α · l + row sum of p,               a' = α · a + ∑ over the chunk's steps of p · xc.
  The generated payloads spell the first chunk and the second chunk with different intermediate names; both are
  this one step (`stepM`, `stepL`, `stepA`), which is what the per-case contents of the three carried buffers are
  stated over.
-/
import proofs.«181928_j22041772163436_2_alg».proof.Proof.Gen.KernelIdeal.Skeleton
import Idealize.ShloMosaic.Lib.Pipeline.Value

noncomputable section

open Idealize.ShloMosaic Idealize.ShloMosaic.TcCoe Idealize.SL.Sem

namespace Cert.KernelIdeal.Body

open Cert.KernelIdeal Cert.KernelIdeal.Gen

variable {F : FTy → Type} [FloatOps F]

theorem inb_chunk0 : ∀ a, (![0, 0, 0] : Fin 3 → Nat) a + S16x256x256.size a ≤ S16x512x256.size a := by decide
theorem inb_chunk1 : ∀ a, (![0, 256, 0] : Fin 3 → Nat) a + S16x256x256.size a ≤ S16x512x256.size a := by decide

/-- The first 256 steps of a time tile. -/
def chunk0 (x0 : Vec F S16x512x256 .f32) : Vec F S16x256x256 .f32 :=
  View.ld x0 (Rect.unit (s := S16x512x256) ![0, 0, 0] S16x256x256.size inb_chunk0)

/-- The last 256 steps of a time tile. -/
def chunk1 (x0 : Vec F S16x512x256 .f32) : Vec F S16x256x256 .f32 :=
  View.ld x0 (Rect.unit (s := S16x512x256) ![0, 256, 0] S16x256x256.size inb_chunk1)

/-- The running maximum after a chunk. -/
def stepM (W : Vec F S256x256 .f32) (wb : Vec F S256 .f32) (V : Vec F S256x1 .f32) (vb : Vec F S1 .f32)
    (xc : Vec F S16x256x256 .f32) (m : Vec F S16x1 .f32) : Vec F S16x1 .f32 :=
  k0_pay13 (k0_pay8 W wb V vb xc m)

/-- The normaliser after a chunk. -/
def stepL (W : Vec F S256x256 .f32) (wb : Vec F S256 .f32) (V : Vec F S256x1 .f32) (vb : Vec F S1 .f32)
    (xc : Vec F S16x256x256 .f32) (m l : Vec F S16x1 .f32) : Vec F S16x1 .f32 :=
  k0_pay11 (k0_pay9 W wb V vb xc m m) (k0_pay10 W wb V vb xc m) l

/-- The accumulator after a chunk. -/
def stepA (W : Vec F S256x256 .f32) (wb : Vec F S256 .f32) (V : Vec F S256x1 .f32) (vb : Vec F S1 .f32)
    (xc : Vec F S16x256x256 .f32) (m : Vec F S16x1 .f32) (a : Vec F S16x256 .f32) : Vec F S16x256 .f32 :=
  k0_pay12 xc (k0_pay9 W wb V vb xc m m) (k0_pay10 W wb V vb xc m) a

/-- The three carried buffers after one grid point: two chunk steps. -/
def pointM (W : Vec F S256x256 .f32) (wb : Vec F S256 .f32) (V : Vec F S256x1 .f32) (vb : Vec F S1 .f32)
    (x0 : Vec F S16x512x256 .f32) (m : Vec F S16x1 .f32) : Vec F S16x1 .f32 :=
  stepM W wb V vb (chunk1 x0) (stepM W wb V vb (chunk0 x0) m)

def pointL (W : Vec F S256x256 .f32) (wb : Vec F S256 .f32) (V : Vec F S256x1 .f32) (vb : Vec F S1 .f32)
    (x0 : Vec F S16x512x256 .f32) (m l : Vec F S16x1 .f32) : Vec F S16x1 .f32 :=
  stepL W wb V vb (chunk1 x0) (stepM W wb V vb (chunk0 x0) m) (stepL W wb V vb (chunk0 x0) m l)

def pointA (W : Vec F S256x256 .f32) (wb : Vec F S256 .f32) (V : Vec F S256x1 .f32) (vb : Vec F S1 .f32)
    (x0 : Vec F S16x512x256 .f32) (m : Vec F S16x1 .f32) (a : Vec F S16x256 .f32) : Vec F S16x256 .f32 :=
  stepA W wb V vb (chunk1 x0) (stepM W wb V vb (chunk0 x0) m) (stepA W wb V vb (chunk0 x0) m a)

/-- The second chunk's spelling of the three updates is the same step. -/
theorem second_M (W : Vec F S256x256 .f32) (wb : Vec F S256 .f32) (V : Vec F S256x1 .f32) (vb : Vec F S1 .f32)
    (xc : Vec F S16x256x256 .f32) (m : Vec F S16x1 .f32) :
    k0_pay22 (k0_pay14 (k0_pay5 W) wb (k0_pay6 V) xc) (k0_pay15 vb) m = stepM W wb V vb xc m := rfl

theorem second_L (W : Vec F S256x256 .f32) (wb : Vec F S256 .f32) (V : Vec F S256x1 .f32) (vb : Vec F S1 .f32)
    (xc : Vec F S16x256x256 .f32) (m l : Vec F S16x1 .f32) :
    k0_pay20 (k0_pay14 (k0_pay5 W) wb (k0_pay6 V) xc) (k0_pay15 vb) m m l = stepL W wb V vb xc m l := rfl

theorem second_A (W : Vec F S256x256 .f32) (wb : Vec F S256 .f32) (V : Vec F S256x1 .f32) (vb : Vec F S1 .f32)
    (xc : Vec F S16x256x256 .f32) (m : Vec F S16x1 .f32) (a : Vec F S16x256 .f32) :
    k0_pay21 xc (k0_pay14 (k0_pay5 W) wb (k0_pay6 V) xc) (k0_pay15 vb) m m a = stepA W wb V vb xc m a := rfl

end Cert.KernelIdeal.Body

end
-- ==== Proof.Pieces.lean ====
import proofs.«181928_j22041772163436_2_alg».proof.Proof.Gen.KernelIdeal.Frame
import proofs.«181928_j22041772163436_2_alg».proof.Proof.Body
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

/-
  What each control case of the body leaves in the three carried buffers (running maximum, normaliser, accumulator)
  and, at a tile row's last point, in the output block — as the chunk steps of the body's loads. Every store of the
  body covers its whole buffer, so a buffer ends at its last store's payload and a load reads the payload of the
  store before it. At a row's first point the loads read the reset values (-∞, 0, 0); elsewhere what the point
  before left. At the last point the output block is the accumulator divided by the normaliser.
-/
namespace Cert.KernelIdeal.Pieces

open Cert.KernelIdeal Cert.KernelIdeal.Gen Cert.KernelIdeal.Body

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- A load of a whole buffer after several whole-buffer stores reads the last store's payload. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## First point of a tile row: from the reset values -/

theorem piece_A_0 (c : Dev nD) (i : grid0.Coords) (arg2 : Memref sig .tc .vmem S16x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S1 .f32) (harg6 : arg6.IsWhole) (arg7 : Memref sig .tc .vmem S16x256 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x256 .f32) (harg10 : arg10.IsWhole) (hc0 : cond0_0 i) (hc1 : ¬cond0_1 i) (x0 : Vec F S16x512x256 .f32) (x1 : Vec F S256x256 .f32) (x2 : Vec F S256 .f32) (x3 : Vec F S256x1 .f32) (x4 : Vec F S1 .f32)  :
    sout0_A_0 c i arg2 harg2 arg3 harg3 arg4 harg4 arg5 harg5 arg6 harg6 arg7 harg7 arg8 harg8 arg9 harg9 arg10 harg10 hc0 hc1 x0 x1 x2 x3 x4 = pointM x1 x2 x3 x4 x0 k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S16x1) hz2]
  simp only [readCov_cons_unit_zero (S := S16x1) _ hz2, readCov_cons_unit_zero (S := S16x256) _ hz2, View.readAt_eq_ld, harg2.read_unread, harg3.read_unread, harg4.read_unread, harg5.read_unread, harg6.read_unread, harg8.read_unread, harg9.read_unread, harg10.read_unread, View.ld_unit_zero (S := S256x256) hz2, View.ld_unit_zero (S := S256) hz1, View.ld_unit_zero (S := S256x1) hz2, View.ld_unit_zero (S := S1) hz1, View.ld_unit_zero (S := S16x1) hz2, View.ld_unit_zero (S := S16x256) hz2, second_M, second_L, second_A]
  rfl

theorem piece_A_1 (c : Dev nD) (i : grid0.Coords) (arg2 : Memref sig .tc .vmem S16x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S1 .f32) (harg6 : arg6.IsWhole) (arg7 : Memref sig .tc .vmem S16x256 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x256 .f32) (harg10 : arg10.IsWhole) (hc0 : cond0_0 i) (hc1 : ¬cond0_1 i) (x0 : Vec F S16x512x256 .f32) (x1 : Vec F S256x256 .f32) (x2 : Vec F S256 .f32) (x3 : Vec F S256x1 .f32) (x4 : Vec F S1 .f32)  :
    sout0_A_1 c i arg2 harg2 arg3 harg3 arg4 harg4 arg5 harg5 arg6 harg6 arg7 harg7 arg8 harg8 arg9 harg9 arg10 harg10 hc0 hc1 x0 x1 x2 x3 x4 = pointL x1 x2 x3 x4 x0 k0_pay2 k0_pay3 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S16x1) hz2]
  simp only [readCov_cons_unit_zero (S := S16x1) _ hz2, readCov_cons_unit_zero (S := S16x256) _ hz2, View.readAt_eq_ld, harg2.read_unread, harg3.read_unread, harg4.read_unread, harg5.read_unread, harg6.read_unread, harg8.read_unread, harg9.read_unread, harg10.read_unread, View.ld_unit_zero (S := S256x256) hz2, View.ld_unit_zero (S := S256) hz1, View.ld_unit_zero (S := S256x1) hz2, View.ld_unit_zero (S := S1) hz1, View.ld_unit_zero (S := S16x1) hz2, View.ld_unit_zero (S := S16x256) hz2, second_M, second_L, second_A]
  rfl

theorem piece_A_2 (c : Dev nD) (i : grid0.Coords) (arg2 : Memref sig .tc .vmem S16x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S1 .f32) (harg6 : arg6.IsWhole) (arg7 : Memref sig .tc .vmem S16x256 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x256 .f32) (harg10 : arg10.IsWhole) (hc0 : cond0_0 i) (hc1 : ¬cond0_1 i) (x0 : Vec F S16x512x256 .f32) (x1 : Vec F S256x256 .f32) (x2 : Vec F S256 .f32) (x3 : Vec F S256x1 .f32) (x4 : Vec F S1 .f32)  :
    sout0_A_2 c i arg2 harg2 arg3 harg3 arg4 harg4 arg5 harg5 arg6 harg6 arg7 harg7 arg8 harg8 arg9 harg9 arg10 harg10 hc0 hc1 x0 x1 x2 x3 x4 = pointA x1 x2 x3 x4 x0 k0_pay2 k0_pay4 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S16x256) hz2]
  simp only [readCov_cons_unit_zero (S := S16x1) _ hz2, readCov_cons_unit_zero (S := S16x256) _ hz2, View.readAt_eq_ld, harg2.read_unread, harg3.read_unread, harg4.read_unread, harg5.read_unread, harg6.read_unread, harg8.read_unread, harg9.read_unread, harg10.read_unread, View.ld_unit_zero (S := S256x256) hz2, View.ld_unit_zero (S := S256) hz1, View.ld_unit_zero (S := S256x1) hz2, View.ld_unit_zero (S := S1) hz1, View.ld_unit_zero (S := S16x1) hz2, View.ld_unit_zero (S := S16x256) hz2, second_M, second_L, second_A]
  rfl

/-! ## A middle point: from what the point before left -/

theorem piece_B_0 (c : Dev nD) (i : grid0.Coords) (arg2 : Memref sig .tc .vmem S16x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S1 .f32) (harg6 : arg6.IsWhole) (arg7 : Memref sig .tc .vmem S16x256 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x256 .f32) (harg10 : arg10.IsWhole) (hc0 : ¬cond0_0 i) (hc1 : ¬cond0_1 i) (x0 : Vec F S16x512x256 .f32) (x1 : Vec F S256x256 .f32) (x2 : Vec F S256 .f32) (x3 : Vec F S256x1 .f32) (x4 : Vec F S1 .f32) (xs0 : Vec F S16x1 .f32) (xs1 : Vec F S16x1 .f32) (xs2 : Vec F S16x256 .f32) :
    sout0_B_0 c i arg2 harg2 arg3 harg3 arg4 harg4 arg5 harg5 arg6 harg6 arg7 harg7 arg8 harg8 arg9 harg9 arg10 harg10 hc0 hc1 x0 x1 x2 x3 x4 xs0 xs1 xs2 = pointM x1 x2 x3 x4 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_cons_unit_zero (S := S16x1) hz2]
  simp only [readCov_cons_unit_zero (S := S16x1) _ hz2, readCov_cons_unit_zero (S := S16x256) _ hz2, View.readAt_eq_ld, harg2.read_unread, harg3.read_unread, harg4.read_unread, harg5.read_unread, harg6.read_unread, harg8.read_unread, harg9.read_unread, harg10.read_unread, View.ld_unit_zero (S := S256x256) hz2, View.ld_unit_zero (S := S256) hz1, View.ld_unit_zero (S := S256x1) hz2, View.ld_unit_zero (S := S1) hz1, View.ld_unit_zero (S := S16x1) hz2, View.ld_unit_zero (S := S16x256) hz2, second_M, second_L, second_A]
  rfl

theorem piece_B_1 (c : Dev nD) (i : grid0.Coords) (arg2 : Memref sig .tc .vmem S16x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S1 .f32) (harg6 : arg6.IsWhole) (arg7 : Memref sig .tc .vmem S16x256 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x256 .f32) (harg10 : arg10.IsWhole) (hc0 : ¬cond0_0 i) (hc1 : ¬cond0_1 i) (x0 : Vec F S16x512x256 .f32) (x1 : Vec F S256x256 .f32) (x2 : Vec F S256 .f32) (x3 : Vec F S256x1 .f32) (x4 : Vec F S1 .f32) (xs0 : Vec F S16x1 .f32) (xs1 : Vec F S16x1 .f32) (xs2 : Vec F S16x256 .f32) :
    sout0_B_1 c i arg2 harg2 arg3 harg3 arg4 harg4 arg5 harg5 arg6 harg6 arg7 harg7 arg8 harg8 arg9 harg9 arg10 harg10 hc0 hc1 x0 x1 x2 x3 x4 xs0 xs1 xs2 = pointL x1 x2 x3 x4 x0 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_cons_unit_zero (S := S16x1) hz2]
  simp only [readCov_cons_unit_zero (S := S16x1) _ hz2, readCov_cons_unit_zero (S := S16x256) _ hz2, View.readAt_eq_ld, harg2.read_unread, harg3.read_unread, harg4.read_unread, harg5.read_unread, harg6.read_unread, harg8.read_unread, harg9.read_unread, harg10.read_unread, View.ld_unit_zero (S := S256x256) hz2, View.ld_unit_zero (S := S256) hz1, View.ld_unit_zero (S := S256x1) hz2, View.ld_unit_zero (S := S1) hz1, View.ld_unit_zero (S := S16x1) hz2, View.ld_unit_zero (S := S16x256) hz2, second_M, second_L, second_A]
  rfl

theorem piece_B_2 (c : Dev nD) (i : grid0.Coords) (arg2 : Memref sig .tc .vmem S16x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S1 .f32) (harg6 : arg6.IsWhole) (arg7 : Memref sig .tc .vmem S16x256 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x256 .f32) (harg10 : arg10.IsWhole) (hc0 : ¬cond0_0 i) (hc1 : ¬cond0_1 i) (x0 : Vec F S16x512x256 .f32) (x1 : Vec F S256x256 .f32) (x2 : Vec F S256 .f32) (x3 : Vec F S256x1 .f32) (x4 : Vec F S1 .f32) (xs0 : Vec F S16x1 .f32) (xs1 : Vec F S16x1 .f32) (xs2 : Vec F S16x256 .f32) :
    sout0_B_2 c i arg2 harg2 arg3 harg3 arg4 harg4 arg5 harg5 arg6 harg6 arg7 harg7 arg8 harg8 arg9 harg9 arg10 harg10 hc0 hc1 x0 x1 x2 x3 x4 xs0 xs1 xs2 = pointA x1 x2 x3 x4 x0 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_cons_unit_zero (S := S16x256) hz2]
  simp only [readCov_cons_unit_zero (S := S16x1) _ hz2, readCov_cons_unit_zero (S := S16x256) _ hz2, View.readAt_eq_ld, harg2.read_unread, harg3.read_unread, harg4.read_unread, harg5.read_unread, harg6.read_unread, harg8.read_unread, harg9.read_unread, harg10.read_unread, View.ld_unit_zero (S := S256x256) hz2, View.ld_unit_zero (S := S256) hz1, View.ld_unit_zero (S := S256x1) hz2, View.ld_unit_zero (S := S1) hz1, View.ld_unit_zero (S := S16x1) hz2, View.ld_unit_zero (S := S16x256) hz2, second_M, second_L, second_A]
  rfl

/-! ## Last point of a tile row: the same steps, then the quotient into the output block -/

theorem piece_C_0 (c : Dev nD) (i : grid0.Coords) (arg2 : Memref sig .tc .vmem S16x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S1 .f32) (harg6 : arg6.IsWhole) (arg7 : Memref sig .tc .vmem S16x256 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x256 .f32) (harg10 : arg10.IsWhole) (hc0 : ¬cond0_0 i) (hc1 : cond0_1 i) (x0 : Vec F S16x512x256 .f32) (x1 : Vec F S256x256 .f32) (x2 : Vec F S256 .f32) (x3 : Vec F S256x1 .f32) (x4 : Vec F S1 .f32) (xs0 : Vec F S16x1 .f32) (xs1 : Vec F S16x1 .f32) (xs2 : Vec F S16x256 .f32) :
    sout0_C_0 c i arg2 harg2 arg3 harg3 arg4 harg4 arg5 harg5 arg6 harg6 arg7 harg7 arg8 harg8 arg9 harg9 arg10 harg10 hc0 hc1 x0 x1 x2 x3 x4 xs0 xs1 xs2 = pointM x1 x2 x3 x4 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_cons_unit_zero (S := S16x1) hz2]
  simp only [readCov_cons_unit_zero (S := S16x1) _ hz2, readCov_cons_unit_zero (S := S16x256) _ hz2, View.readAt_eq_ld, harg2.read_unread, harg3.read_unread, harg4.read_unread, harg5.read_unread, harg6.read_unread, harg8.read_unread, harg9.read_unread, harg10.read_unread, View.ld_unit_zero (S := S256x256) hz2, View.ld_unit_zero (S := S256) hz1, View.ld_unit_zero (S := S256x1) hz2, View.ld_unit_zero (S := S1) hz1, View.ld_unit_zero (S := S16x1) hz2, View.ld_unit_zero (S := S16x256) hz2, second_M, second_L, second_A]
  rfl

theorem piece_C_1 (c : Dev nD) (i : grid0.Coords) (arg2 : Memref sig .tc .vmem S16x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S1 .f32) (harg6 : arg6.IsWhole) (arg7 : Memref sig .tc .vmem S16x256 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x256 .f32) (harg10 : arg10.IsWhole) (hc0 : ¬cond0_0 i) (hc1 : cond0_1 i) (x0 : Vec F S16x512x256 .f32) (x1 : Vec F S256x256 .f32) (x2 : Vec F S256 .f32) (x3 : Vec F S256x1 .f32) (x4 : Vec F S1 .f32) (xs0 : Vec F S16x1 .f32) (xs1 : Vec F S16x1 .f32) (xs2 : Vec F S16x256 .f32) :
    sout0_C_1 c i arg2 harg2 arg3 harg3 arg4 harg4 arg5 harg5 arg6 harg6 arg7 harg7 arg8 harg8 arg9 harg9 arg10 harg10 hc0 hc1 x0 x1 x2 x3 x4 xs0 xs1 xs2 = pointL x1 x2 x3 x4 x0 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_cons_unit_zero (S := S16x1) hz2]
  simp only [readCov_cons_unit_zero (S := S16x1) _ hz2, readCov_cons_unit_zero (S := S16x256) _ hz2, View.readAt_eq_ld, harg2.read_unread, harg3.read_unread, harg4.read_unread, harg5.read_unread, harg6.read_unread, harg8.read_unread, harg9.read_unread, harg10.read_unread, View.ld_unit_zero (S := S256x256) hz2, View.ld_unit_zero (S := S256) hz1, View.ld_unit_zero (S := S256x1) hz2, View.ld_unit_zero (S := S1) hz1, View.ld_unit_zero (S := S16x1) hz2, View.ld_unit_zero (S := S16x256) hz2, second_M, second_L, second_A]
  rfl

theorem piece_C_2 (c : Dev nD) (i : grid0.Coords) (arg2 : Memref sig .tc .vmem S16x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S1 .f32) (harg6 : arg6.IsWhole) (arg7 : Memref sig .tc .vmem S16x256 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x256 .f32) (harg10 : arg10.IsWhole) (hc0 : ¬cond0_0 i) (hc1 : cond0_1 i) (x0 : Vec F S16x512x256 .f32) (x1 : Vec F S256x256 .f32) (x2 : Vec F S256 .f32) (x3 : Vec F S256x1 .f32) (x4 : Vec F S1 .f32) (xs0 : Vec F S16x1 .f32) (xs1 : Vec F S16x1 .f32) (xs2 : Vec F S16x256 .f32) :
    sout0_C_2 c i arg2 harg2 arg3 harg3 arg4 harg4 arg5 harg5 arg6 harg6 arg7 harg7 arg8 harg8 arg9 harg9 arg10 harg10 hc0 hc1 x0 x1 x2 x3 x4 xs0 xs1 xs2 = pointA x1 x2 x3 x4 x0 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_cons_unit_zero (S := S16x256) hz2]
  simp only [readCov_cons_unit_zero (S := S16x1) _ hz2, readCov_cons_unit_zero (S := S16x256) _ hz2, View.readAt_eq_ld, harg2.read_unread, harg3.read_unread, harg4.read_unread, harg5.read_unread, harg6.read_unread, harg8.read_unread, harg9.read_unread, harg10.read_unread, View.ld_unit_zero (S := S256x256) hz2, View.ld_unit_zero (S := S256) hz1, View.ld_unit_zero (S := S256x1) hz2, View.ld_unit_zero (S := S1) hz1, View.ld_unit_zero (S := S16x1) hz2, View.ld_unit_zero (S := S16x256) hz2, second_M, second_L, second_A]
  rfl

theorem piece_C_out (c : Dev nD) (i : grid0.Coords) (arg2 : Memref sig .tc .vmem S16x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S1 .f32) (harg6 : arg6.IsWhole) (arg7 : Memref sig .tc .vmem S16x256 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x256 .f32) (harg10 : arg10.IsWhole) (hc0 : ¬cond0_0 i) (hc1 : cond0_1 i) (x0 : Vec F S16x512x256 .f32) (x1 : Vec F S256x256 .f32) (x2 : Vec F S256 .f32) (x3 : Vec F S256x1 .f32) (x4 : Vec F S1 .f32) (xs0 : Vec F S16x1 .f32) (xs1 : Vec F S16x1 .f32) (xs2 : Vec F S16x256 .f32) :
    out0_C_5 c i arg2 harg2 arg3 harg3 arg4 harg4 arg5 harg5 arg6 harg6 arg7 harg7 arg8 harg8 arg9 harg9 arg10 harg10 hc0 hc1 x0 x1 x2 x3 x4 xs0 xs1 xs2
      = k0_pay1 (pointA x1 x2 x3 x4 x0 xs0 xs2) (pointL x1 x2 x3 x4 x0 xs0 xs1) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_cons_unit_zero (S := S16x256) hz2]
  simp only [readCov_cons_unit_zero (S := S16x1) _ hz2, readCov_cons_unit_zero (S := S16x256) _ hz2, View.readAt_eq_ld, harg2.read_unread, harg3.read_unread, harg4.read_unread, harg5.read_unread, harg6.read_unread, harg8.read_unread, harg9.read_unread, harg10.read_unread, View.ld_unit_zero (S := S256x256) hz2, View.ld_unit_zero (S := S256) hz1, View.ld_unit_zero (S := S256x1) hz2, View.ld_unit_zero (S := S1) hz1, View.ld_unit_zero (S := S16x1) hz2, View.ld_unit_zero (S := S16x256) hz2, second_M, second_L, second_A]
  rfl

end Cert.KernelIdeal.Pieces

end
-- ==== Proof.LibLayoutReads.lean ====
/-
  Layout operations and one-axis reductions read at an index given by coordinates, for the shapes a normalisation
  over the middle axis of a rank-3 array meets when the reduced axis is kept as a unit axis: unit axes added or dropped by a shape cast
  (in the middle and at the end, not only in front), a column, a slab or a vector broadcast over a rank-3 array,
  one row or one column cut from a matrix, and a sum or a maximum over axis 1 of a rank-3 array read as the
  `Fin`-indexed sum or fold over that axis's coordinates. Every lemma is over arbitrary extents and an arbitrary
  element type; the indices are written with `ix1 … ix4`.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutReads

open Idealize.ShloMosaic Idealize.ShloMosaic.ValueIdx

variable {α : Type}

/-! ## One more pointwise operation at an index -/

/-- A reciprocal square root of extended reals at an index is that of the element. -/
theorem rsqrt_apply {s : Shape} {φ : FTy} (x : FVec Ideal s φ) (i : s.Idx) : rsqrt x i = Ideal.rsqrt (x i) := rfl

/-! ## Unit axes added or dropped by a shape cast -/

/-- A `[1, a, b, 1]` array cast to `[a, b]` reads, at `(i, j)`, the operand at `(0, i, j, 0)`. -/
theorem shapeCast_1ab1_ab_apply {a b : ℕ} (x : (⟨4, ![1, a, b, 1]⟩ : Shape).Idx → α)
    (h : (⟨4, ![1, a, b, 1]⟩ : Shape).ShapeCasts ⟨2, ![a, b]⟩) (i : Fin a) (j : Fin b) :
    shapeCast ⟨2, ![a, b]⟩ x h (ix2 i j) = x (ix4 (0 : Fin 1) i j (0 : Fin 1)) :=
  shapeCast_apply x h _ _ (by
    rw [Shape.rowMajor_val_four, Shape.rowMajor_val_two]
    show ((0 * a + i.val) * b + j.val) * 1 + 0 = i.val * b + j.val
    rw [Nat.zero_mul, Nat.zero_add, Nat.mul_one, Nat.add_zero])

/-- An `[a, b]` array cast to `[a, b, 1]` reads, at `(i, j, u)`, the operand at `(i, j)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    simp only [hu, hv, Nat.zero_mul, Nat.zero_add])

/-- An `[a, c]` array cast to `[a, 1, c]` (a reduction's result with the reduced axis kept) reads, at `(i, u, k)`,
    the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, 1, c]` array cast to `[a, c]` reads, at `(i, k)`, the operand at `(i, 0, k)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An `[a, c]` array cast to `[1, 1, a, c]` reads, at `(u, v, i, k)`, the operand at `(i, k)`. -/
theorem shapeCast_ac_11ac_apply {a c : ℕ} (x : (⟨2, ![a, c]⟩ : Shape).Idx → α)
    (h : (⟨2, ![a, c]⟩ : Shape).ShapeCasts ⟨4, ![1, 1, a, c]⟩) (u v : Fin 1) (i : Fin a) (k : Fin c) :
    shapeCast ⟨4, ![1, 1, a, c]⟩ x h (ix4 u v i k) = x (ix2 i k) :=
  shapeCast_apply x h _ _ (by
    have hu : u.val = 0 := by omega
    have hv : v.val = 0 := by omega
    rw [Shape.rowMajor_val_two, Shape.rowMajor_val_four]
    show i.val * c + k.val = ((u.val * 1 + v.val) * a + i.val) * c + k.val
    simp only [hu, hv, Nat.zero_mul, Nat.zero_add])

/-! ## One row or one column cut from a matrix -/

/-- Row `o` of a matrix, cut as a `[1, c]` slab, reads at `(u, e)` the matrix at `(o, e)`. -/
theorem slice2_row_apply {n c : ℕ} (o : ℕ) (X : (⟨2, ![n, c]⟩ : Shape).Idx → α)
    (h : (⟨2, ![n, c]⟩ : Shape).Slices ![o, 0] ⟨2, ![1, c]⟩) (u : Fin 1) (e : Fin c) (k : Fin n) (hk : k.val = o) :
    extractStridedSlice ⟨2, ![1, c]⟩ ![o, 0] X h (ix2 u e) = X (ix2 k e) :=
  slice2_axis0_apply o X h u e k (by have := u.isLt; omega)

/-- Column `o` of a matrix, cut as an `[a, 1]` column, reads at `(i, u)` the matrix at `(i, o)`. -/
theorem slice2_col_apply {a b : ℕ} (o : ℕ) (X : (⟨2, ![a, b]⟩ : Shape).Idx → α)
    (h : (⟨2, ![a, b]⟩ : Shape).Slices ![0, o] ⟨2, ![a, 1]⟩) (i : Fin a) (u : Fin 1) (k : Fin b) (hk : k.val = o) :
    extractStridedSlice ⟨2, ![a, 1]⟩ ![0, o] X h (ix2 i u) = X (ix2 i k) :=
  slice2_axis1_apply o X h i u k (by have := u.isLt; omega)

/-! ## Broadcasts along unit axes -/

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array (a reduction over axis 1 with the axis kept) broadcast to `[a, b, c]` reads, at
    `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, 1, c]` vector broadcast to `[a, b, c]` reads, at `(i, j, k)`, the vector at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[1, b, 1]` vector along the middle axis broadcast to `[a, b, c]` reads, at `(i, j, k)`, the vector at
    `(0, j, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (i : Fin a) (j : Fin b) (k : Fin c) :
    broadcastTo ⟨3, ![a, b, c]⟩ v h (ix3 i j k) = v (ix3 (0 : Fin 1) j (0 : Fin 1)) := by
  refine broadcastTo_apply v h (ix3 i j k) (ix3 (0 : Fin 1) j (0 : Fin 1)) fun ax => ?_
  match ax with
  | ⟨0, _⟩ => rfl
  | ⟨1, _⟩ =>
    show j.val = if b = 1 then 0 else j.val
    split
    · have := j.isLt; omega
    · rfl
  | ⟨2, _⟩ => rfl

/-! ## A reduction over axis 1 of a rank-3 array -/

/-- The index `(i, j, k)` of an `[a, b, c]` array is the index `(i, k)` of the array reduced over axis 1 with the
    coordinate `j` put back on that axis. -/
theorem lift_axis1_ix2 {a b c : ℕ} (h : (⟨3, ![a, b, c]⟩ : Shape).Reduces [1] ⟨2, ![a, c]⟩) (i : Fin a) (k : Fin c)
    (j : Fin b) : h.lift (ix2 i k) j = ix3 i j k := by
  funext ax
  match ax with
  | ⟨0, _⟩ => exact Fin.ext rfl
  | ⟨1, _⟩ => exact Fin.ext rfl
  | ⟨2, _⟩ => exact Fin.ext rfl

/-- A sum over axis 1 of an `[a, b, c]` array of extended reals, read at `(i, k)`, is the sum over `j` of the array
    at `(i, j, k)`. -/
theorem multiReduction_add_axis1_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_axis1_ix2 h i k j))

/-- A maximum over axis 1 of an `[a, b, c]` array of extended reals, read at `(i, k)`, is the fold of `max`, from the
    accumulator's value, over `j` of the array at `(i, j, k)`. -/
theorem multiReduction_maximumf_axis1_apply {a b c : ℕ} {φ : FTy} (src : FVec Ideal ⟨3, ![a, b, c]⟩ φ)
    (acc : BitVec φ.bits) (h : (⟨3, ![a, b, c]⟩ : Shape).Reduces [1] ⟨2, ![a, c]⟩) (hφ : FKind.Formats φ)
    (hacc : acc = FKind.maximumf.neutral φ hφ) (i : Fin a) (k : Fin c) :
    multiReduction .maximumf [1] ⟨2, ![a, c]⟩ src acc h hφ hacc (ix2 i k)
      = (Finset.univ : Finset (Fin b)).fold max (Ideal.ofBits φ acc) (fun j => src (ix3 i j k)) :=
  (Ideal.multiReduction_maximumf_single src acc h hφ hacc (ix2 i k)).trans
    (congrArg (fun f => (Finset.univ : Finset (Fin b)).fold max (Ideal.ofBits φ acc) f)
      (funext fun j => congrArg src (lift_axis1_ix2 h i k j)))

end Cert.LayoutReads

end
-- ==== Proof.LibRowReduce.lean ====
/-
  A matrix reduced along its rows, read at a row, at the ideal values: the lane sum of `[a, b]` at row `r` is the sum
  over `c` of the entries `(r, c)`, and the lane maximum is the fold of `max`, from the value the accumulator's word
  denotes, over the same entries. The reduced index with the coordinate `c` put back on the dropped axis is `(r, c)`.
-/
import Idealize.ShloMosaic.Lib.ValueIdx
import Idealize.ShloMosaic.PureOps.Ideal.Laws

noncomputable section

namespace Cert.LibRowReduce

open Idealize.ShloMosaic Idealize.ShloMosaic.ValueIdx

/-- Row `r` of `[a, b]` with the column `c` put back is the entry `(r, c)`. -/
theorem lift_row {a b : ℕ} (h : (⟨2, ![a, b]⟩ : Shape).Reduces [1] ⟨1, ![a]⟩) (r : Fin a) (c : Fin b) :
    h.lift (ix1 r) c = ix2 r c := by
  funext d
  apply Fin.ext
  match d with
  | ⟨0, _⟩ => rfl
  | ⟨1, _⟩ => rfl

/-- The lane sum of a matrix at row `r` is the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src (lift_row h r c))

/-- The lane maximum of a matrix at row `r` is the fold of `max` over the row's entries, from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (congrArg ((Finset.univ : Finset (Fin b)).fold max (Ideal.ofBits φ acc)) (funext fun c => congrArg src (lift_row h r c)))

end Cert.LibRowReduce

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.LibLastAxis.lean ====
/-
  Reading at an entry: sums over the LAST axis of a rank-3 array, the keepdims broadcasts a host program wraps around
  such a sum, and one leading slab of a rank-3 array taken out as a matrix.

  For an array `[a, b, c]` the sum over the last axis at `(i, j)` is `∑ k, X (i, j, k)`, for the vector operation
  (`multi_reduction add`) and for the host's reduce (which adds its initial value).  The host spells
  "keep the reduced axis as a unit axis and broadcast it back" with `broadcast_in_dim`: `[a, b] → [a, b, 1] → [a, b, c]`
  reads `(i, j, k) ↦ (i, j)`; a per-slab row vector `[a, c] → [a, 1, c] → [a, b, c]` reads `(i, j, k) ↦ (i, k)`;
  a matrix repeated along a new leading axis `[b, c] → [1, b, c] → [a, b, c]` reads `(i, j, k) ↦ (j, k)`; a row
  vector `[c] → [1, c] → [b, c]` reads `(j, k) ↦ k`.
-/
import Idealize.ShloMosaic.Lib.ValueIdx
import Idealize.ShloMosaic.Lib.Pipeline.Value
import Idealize.ShloMosaic.PureOps.Ideal.Laws

noncomputable section

namespace Cert.LibLastAxis

open Idealize.ShloMosaic Idealize.ShloMosaic.ValueIdx

variable {α : Type}

/-- The index a last-axis reduction inserts coordinate `k` into, at `(i, j)`, is `(i, j, k)`. -/
theorem lift_last {a b c : ℕ} (h : (⟨3, ![a, b, c]⟩ : Shape).Reduces [2] ⟨2, ![a, b]⟩) (i : Fin a) (j : Fin b) (k : Fin c) :
    h.lift (ix2 i j) k = ix3 i j k := by
  funext ax
  match ax with
  | ⟨0, _⟩ => exact Fin.ext rfl
  | ⟨1, _⟩ => exact Fin.ext rfl
  | ⟨2, _⟩ => exact Fin.ext rfl

/-- The vector sum over the last axis of `[a, b, c]`, at `(i, j)`. -/
theorem laneSum3_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last h i j k))

/-- The host's sum over the last axis of `[a, b, c]`, at `(i, j)`: the initial value plus the sum. -/
theorem hostLaneSum3_apply {a b c : ℕ} (x : FVec Ideal ⟨3, ![a, b, c]⟩ .f32) (init : (⟨0, ![]⟩ : Shape).Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (i : Fin a) (j : Fin b) :
    Host.reduceAdd x init h' hu (ix2 i j) = init ix0 + ∑ k : Fin c, x (ix3 i j k) := by
  simp only [Host.reduceAdd, Ideal.hostReduceAdd_def]
  rw [Ideal.hostReduceAdd_single h' h]
  have hi : init (Shape.Idx.first hu) = init ix0 := congrArg init (eq_ix0 _)
  rw [hi]
  exact congrArg (init ix0 + ·) (Finset.sum_congr rfl fun k _ => congrArg x (lift_last h i j k))

/-- `[a, b] → [a, b, 1]`: at `(i, j, u)` the matrix at `(i, j)`. -/
theorem bcast_ab_ab1_apply {a b : ℕ} (h : (⟨2, ![a, b]⟩ : Shape).BroadcastsInDim ⟨3, ![a, b, 1]⟩ (![0, 1] : Fin 2 → Fin 3))
    (y : (⟨2, ![a, b]⟩ : Shape).Idx → α) (i : Fin a) (j : Fin b) (u : Fin 1) :
    broadcastInDim ⟨3, ![a, b, 1]⟩ ![0, 1] h y (ix3 i j u) = y (ix2 i j) :=
  broadcastInDim_apply _ h y (ix3 i j u) (ix2 i j) (fun ax => match ax with
    | ⟨0, _⟩ => by
      show i.val = if a = 1 then 0 else i.val
      split
      · have := i.isLt; omega
      · rfl
    | ⟨1, _⟩ => by
      show j.val = if b = 1 then 0 else j.val
      split
      · have := j.isLt; omega
      · rfl)

/-- `[a, b, 1] → [a, b, c]`: at `(i, j, k)` the column entry at `(i, j, 0)`. -/
theorem bcast_ab1_abc_apply {a b c : ℕ}
    (h : (⟨3, ![a, b, 1]⟩ : Shape).BroadcastsInDim ⟨3, ![a, b, c]⟩ (![0, 1, 2] : Fin 3 → Fin 3))
    (y : (⟨3, ![a, b, 1]⟩ : Shape).Idx → α) (i : Fin a) (j : Fin b) (k : Fin c) :
    broadcastInDim ⟨3, ![a, b, c]⟩ ![0, 1, 2] h y (ix3 i j k) = y (ix3 i j (0 : Fin 1)) :=
  broadcastInDim_apply _ h y (ix3 i j k) (ix3 i j (0 : Fin 1)) (fun ax => match ax with
    | ⟨0, _⟩ => by
      show i.val = if a = 1 then 0 else i.val
      split
      · have := i.isLt; omega
      · rfl
    | ⟨1, _⟩ => by
      show j.val = if b = 1 then 0 else j.val
      split
      · have := j.isLt; omega
      · rfl
    | ⟨2, _⟩ => by
      show 0 = if (1 : ℕ) = 1 then 0 else k.val
      rw [if_pos rfl])

/-- `[a, c] → [a, 1, c]`: at `(i, u, k)` the matrix at `(i, k)`. -/
theorem bcast_ac_a1c_apply {a c : ℕ} (h : (⟨2, ![a, c]⟩ : Shape).BroadcastsInDim ⟨3, ![a, 1, c]⟩ (![0, 2] : Fin 2 → Fin 3))
    (y : (⟨2, ![a, c]⟩ : Shape).Idx → α) (i : Fin a) (u : Fin 1) (k : Fin c) :
    broadcastInDim ⟨3, ![a, 1, c]⟩ ![0, 2] h y (ix3 i u k) = y (ix2 i k) :=
  broadcastInDim_apply _ h y (ix3 i u k) (ix2 i k) (fun ax => match ax with
    | ⟨0, _⟩ => by
      show i.val = if a = 1 then 0 else i.val
      split
      · have := i.isLt; omega
      · rfl
    | ⟨1, _⟩ => by
      show k.val = if c = 1 then 0 else k.val
      split
      · have := k.isLt; omega
      · rfl)

/-- `[a, 1, c] → [a, b, c]`: at `(i, j, k)` the row entry at `(i, 0, k)`. -/
theorem bcast_a1c_abc_apply {a b c : ℕ}
    (h : (⟨3, ![a, 1, c]⟩ : Shape).BroadcastsInDim ⟨3, ![a, b, c]⟩ (![0, 1, 2] : Fin 3 → Fin 3))
    (y : (⟨3, ![a, 1, c]⟩ : Shape).Idx → α) (i : Fin a) (j : Fin b) (k : Fin c) :
    broadcastInDim ⟨3, ![a, b, c]⟩ ![0, 1, 2] h y (ix3 i j k) = y (ix3 i (0 : Fin 1) k) :=
  broadcastInDim_apply _ h y (ix3 i j k) (ix3 i (0 : Fin 1) k) (fun ax => match ax with
    | ⟨0, _⟩ => by
      show i.val = if a = 1 then 0 else i.val
      split
      · have := i.isLt; omega
      · rfl
    | ⟨1, _⟩ => by
      show 0 = if (1 : ℕ) = 1 then 0 else j.val
      rw [if_pos rfl]
    | ⟨2, _⟩ => by
      show k.val = if c = 1 then 0 else k.val
      split
      · have := k.isLt; omega
      · rfl)

/-- `[b, c] → [1, b, c]`: at `(u, j, k)` the matrix at `(j, k)`. -/
theorem bcast_bc_1bc_apply {b c : ℕ} (h : (⟨2, ![b, c]⟩ : Shape).BroadcastsInDim ⟨3, ![1, b, c]⟩ (![1, 2] : Fin 2 → Fin 3))
    (y : (⟨2, ![b, c]⟩ : Shape).Idx → α) (u : Fin 1) (j : Fin b) (k : Fin c) :
    broadcastInDim ⟨3, ![1, b, c]⟩ ![1, 2] h y (ix3 u j k) = y (ix2 j k) :=
  broadcastInDim_apply _ h y (ix3 u j k) (ix2 j k) (fun ax => match ax with
    | ⟨0, _⟩ => by
      show j.val = if b = 1 then 0 else j.val
      split
      · have := j.isLt; omega
      · rfl
    | ⟨1, _⟩ => by
      show k.val = if c = 1 then 0 else k.val
      split
      · have := k.isLt; omega
      · rfl)

/-- `[1, b, c] → [a, b, c]`: at `(i, j, k)` the one slab at `(0, j, k)`. -/
theorem bcast_1bc_abc_apply {a b c : ℕ}
    (h : (⟨3, ![1, b, c]⟩ : Shape).BroadcastsInDim ⟨3, ![a, b, c]⟩ (![0, 1, 2] : Fin 3 → Fin 3))
    (y : (⟨3, ![1, b, c]⟩ : Shape).Idx → α) (i : Fin a) (j : Fin b) (k : Fin c) :
    broadcastInDim ⟨3, ![a, b, c]⟩ ![0, 1, 2] h y (ix3 i j k) = y (ix3 (0 : Fin 1) j k) :=
  broadcastInDim_apply _ h y (ix3 i j k) (ix3 (0 : Fin 1) j k) (fun ax => match ax with
    | ⟨0, _⟩ => by
      show 0 = if (1 : ℕ) = 1 then 0 else i.val
      rw [if_pos rfl]
    | ⟨1, _⟩ => by
      show j.val = if b = 1 then 0 else j.val
      split
      · have := j.isLt; omega
      · rfl
    | ⟨2, _⟩ => by
      show k.val = if c = 1 then 0 else k.val
      split
      · have := k.isLt; omega
      · rfl)

/-- `[c] → [1, c]`: at `(u, k)` the vector at `k`. -/
theorem bcast_c_1c_apply {c : ℕ} (h : (⟨1, ![c]⟩ : Shape).BroadcastsInDim ⟨2, ![1, c]⟩ (![1] : Fin 1 → Fin 2))
    (y : (⟨1, ![c]⟩ : Shape).Idx → α) (u : Fin 1) (k : Fin c) :
    broadcastInDim ⟨2, ![1, c]⟩ ![1] h y (ix2 u k) = y (ix1 k) :=
  broadcastInDim_apply _ h y (ix2 u k) (ix1 k) (fun ax => match ax with
    | ⟨0, _⟩ => by
      show k.val = if c = 1 then 0 else k.val
      split
      · have := k.isLt; omega
      · rfl)

/-- `[1, c] → [b, c]`: at `(j, k)` the one row at `(0, k)`. -/
theorem bcast_1c_bc_apply {b c : ℕ} (h : (⟨2, ![1, c]⟩ : Shape).BroadcastsInDim ⟨2, ![b, c]⟩ (![0, 1] : Fin 2 → Fin 2))
    (y : (⟨2, ![1, c]⟩ : Shape).Idx → α) (j : Fin b) (k : Fin c) :
    broadcastInDim ⟨2, ![b, c]⟩ ![0, 1] h y (ix2 j k) = y (ix2 (0 : Fin 1) k) :=
  broadcastInDim_apply _ h y (ix2 j k) (ix2 (0 : Fin 1) k) (fun ax => match ax with
    | ⟨0, _⟩ => by
      show 0 = if (1 : ℕ) = 1 then 0 else j.val
      rw [if_pos rfl]
    | ⟨1, _⟩ => by
      show k.val = if c = 1 then 0 else k.val
      split
      · have := k.isLt; omega
      · rfl)

/-- A `[1, b, c]` vector broadcast to `[a, b, c]` reads, at `(i, j, k)`, its one slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Slab `g` of an `[n, b, c]` array sliced out as `[1, b, c]`: at `(u, j, k)` the array at `(g, j, k)`. -/
theorem slab_apply {n b c : ℕ} (o : ℕ) (X : (⟨3, ![n, b, c]⟩ : Shape).Idx → α)
    (h : (⟨3, ![n, b, c]⟩ : Shape).Slices ![o, 0, 0] ⟨3, ![1, b, c]⟩) (u : Fin 1) (j : Fin b) (k : Fin c)
    (g : Fin n) (hg : g.val = o) :
    extractStridedSlice ⟨3, ![1, b, c]⟩ ![o, 0, 0] X h (ix3 u j k) = X (ix3 g j k) :=
  extractStridedSlice_apply _ X h (ix3 u j k) (ix3 g j k) (fun ax => match ax with
    | ⟨0, _⟩ => by
      show g.val = o + u.val
      have := u.isLt; omega
    | ⟨1, _⟩ => by
      show j.val = 0 + j.val
      omega
    | ⟨2, _⟩ => by
      show k.val = 0 + k.val
      omega)

/-- Slab 0 of a four-slab array, as a matrix. -/
theorem slab4_0 {b c : ℕ} (X : (⟨3, ![4, b, c]⟩ : Shape).Idx → α)
    (h : (⟨3, ![4, b, c]⟩ : Shape).Slices ![0, 0, 0] ⟨3, ![1, b, c]⟩) (u : Fin 1) (j : Fin b) (k : Fin c) :
    extractStridedSlice ⟨3, ![1, b, c]⟩ ![0, 0, 0] X h (ix3 u j k) = X (ix3 (0 : Fin 4) j k) :=
  slab_apply 0 X h u j k (0 : Fin 4) rfl

/-- Slab 1 of a four-slab array, as a matrix. -/
theorem slab4_1 {b c : ℕ} (X : (⟨3, ![4, b, c]⟩ : Shape).Idx → α)
    (h : (⟨3, ![4, b, c]⟩ : Shape).Slices ![1, 0, 0] ⟨3, ![1, b, c]⟩) (u : Fin 1) (j : Fin b) (k : Fin c) :
    extractStridedSlice ⟨3, ![1, b, c]⟩ ![1, 0, 0] X h (ix3 u j k) = X (ix3 (1 : Fin 4) j k) :=
  slab_apply 1 X h u j k (1 : Fin 4) rfl

/-- Slab 2 of a four-slab array, as a matrix. -/
theorem slab4_2 {b c : ℕ} (X : (⟨3, ![4, b, c]⟩ : Shape).Idx → α)
    (h : (⟨3, ![4, b, c]⟩ : Shape).Slices ![2, 0, 0] ⟨3, ![1, b, c]⟩) (u : Fin 1) (j : Fin b) (k : Fin c) :
    extractStridedSlice ⟨3, ![1, b, c]⟩ ![2, 0, 0] X h (ix3 u j k) = X (ix3 (2 : Fin 4) j k) :=
  slab_apply 2 X h u j k (2 : Fin 4) rfl

/-- Slab 3 of a four-slab array, as a matrix. -/
theorem slab4_3 {b c : ℕ} (X : (⟨3, ![4, b, c]⟩ : Shape).Idx → α)
    (h : (⟨3, ![4, b, c]⟩ : Shape).Slices ![3, 0, 0] ⟨3, ![1, b, c]⟩) (u : Fin 1) (j : Fin b) (k : Fin c) :
    extractStridedSlice ⟨3, ![1, b, c]⟩ ![3, 0, 0] X h (ix3 u j k) = X (ix3 (3 : Fin 4) j k) :=
  slab_apply 3 X h u j k (3 : Fin 4) rfl

/-- The float words of zero and one, on the extended reals. -/
theorem zero_word : Ideal.ofBits .f32 0x00000000#32 = (0 : EReal) := Ideal.ofBits_zero_f32

theorem one_word : Ideal.ofBits .f32 0x3F800000#32 = (1 : EReal) := by
  simp [Ideal.ofBits, Ideal.ieee, -EReal.coe_mul]; norm_num

end Cert.LibLastAxis

end
-- ==== Proof.LibFlatten.lean ====
/-
  Layout operations read at an index given by coordinates: the two leading axes of a rank-3 array `[a, b, c]` flattened
  into one (`[n, c]` with `n = a · b`, row `i · b + j`) and split again, a column `[a, 1]` recast as a vector `[a]`,
  and a `[1, 1]` cell broadcast over a matrix. Every lemma is over arbitrary extents and an arbitrary element type; the
  flattened row is given as a variable `p` with its value as a hypothesis, so a literal extent such as `4096` need not
  be spelt as a product.
-/
import Idealize.ShloMosaic.Lib.ValueIdx
import Idealize.ShloMosaic.Lib.Pipeline.Value

noncomputable section

namespace Cert.LibFlatten

open Idealize.ShloMosaic Idealize.ShloMosaic.ValueIdx

variable {α : Type}

/-- An `[a, b, c]` array cast to `[n, c]` reads, at row `p = i · b + j` and column `k`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (p : Fin n)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- An `[n, c]` array cast to `[a, b, c]` reads, at `(i, j, k)`, the operand at row `p = i · b + j` and column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (p : Fin n)
    (hp : p.val = i.val * b + j.val) :
    shapeCast ⟨3, ![a, b, c]⟩ x h (ix3 i j k) = x (ix2 p k) :=
  shapeCast_apply x h _ _ (by
    rw [Shape.rowMajor_val_two, Shape.rowMajor_val_three]
    show p.val * c + k.val = (i.val * b + j.val) * c + k.val
    rw [hp])

/-- A column `[a, 1]` recast as the vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A `[1, 1]` cell broadcast to `[a, b]` reads the cell everywhere. -/
theorem broadcastTo_11_ab_apply {a b : ℕ} (v : (⟨2, ![1, 1]⟩ : Shape).Idx → α)
    (h : (⟨2, ![1, 1]⟩ : Shape).Broadcasts ⟨2, ![a, b]⟩) (i : Fin a) (j : Fin b) :
    broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

end Cert.LibFlatten

end
-- ==== Proof.Reads.lean ====
/-
  The chunk step read at an index, on the extended reals.

  Row `r` of a chunk is independent of the other rows: its scores are the dense layer of each step's feature row
  contracted with the score vector (`scores_apply`); the new maximum is the maximum of the old one and the row's
  scores (`newMax_apply`); the normaliser and the accumulator are rescaled by `exp (m - m')` and receive the row's
  weights `exp (score - m')` summed, resp. summed against the step's features (`stepL_apply`, `stepA_apply`). The
  layout operations in between (flattening the chunk's two leading axes for the matrix product and splitting them
  again, unit axes added for the broadcasts) only rename indices.
-/
import proofs.«181928_j22041772163436_2_alg».proof.Proof.Body
import proofs.«181928_j22041772163436_2_alg».proof.Proof.LibLayoutReads
import proofs.«181928_j22041772163436_2_alg».proof.Proof.LibRowReduce
import proofs.«181928_j22041772163436_2_alg».proof.Proof.LibKeepdims
import proofs.«181928_j22041772163436_2_alg».proof.Proof.LibMatProduct
import proofs.«181928_j22041772163436_2_alg».proof.Proof.LibLastAxis
import proofs.«181928_j22041772163436_2_alg».proof.Proof.LibFlatten
import Idealize.ShloMosaic.Lib.ValueLayout
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Reads

open Cert.KernelIdeal Cert.KernelIdeal.Gen Cert.KernelIdeal.Body

/-- Row `i · 256 + j` of the chunk flattened to 4096 rows. -/
def flatRow (i : Fin 16) (j : Fin 256) : Fin 4096 := ⟨i.val * 256 + j.val, by have := i.isLt; have := j.isLt; omega⟩

/-- The hyperbolic tangent of a vector, read at an index. -/
theorem tanh_apply {s : Shape} {φ : FTy} (v : FVec Ideal s φ) (i : s.Idx) : tanh v i = Ideal.tanh (v i) := rfl

/-- The exponential of a vector, read at an index. -/
theorem exp_apply {s : Shape} {φ : FTy} (v : FVec Ideal s φ) (i : s.Idx) : exp v i = Ideal.exp (v i) := rfl

set_option backward.isDefEq.respectTransparency.types false in
/-- The chunk's scores at row `r`, step `j`: the dense layer `tanh (x · W + b)` of that step's feature row, contracted
    with the score vector `V`, plus the score bias. -/
theorem scores_apply (W : FVec Ideal S256x256 .f32) (wb : FVec Ideal S256 .f32) (V : FVec Ideal S256x1 .f32) (vb : FVec Ideal S1 .f32)
    (xc : FVec Ideal S16x256x256 .f32) (r : Fin 16) (j : Fin 256) :
    k0_pay7 (F := Ideal) W wb V vb xc (ix2 r j)
      = (∑ u : Fin 256, Ideal.tanh ((∑ k : Fin 256, xc (ix3 r j k) * W (ix2 k u)) + wb (ix1 u)) * V (ix2 u (0 : Fin 1)))
        + vb (ix1 (0 : Fin 1)) := by
  unfold k0_pay7 k0_pay5 k0_pay6
  dsimp only
  rw [addf_apply, Cert.LibLastAxis.laneSum3_apply, Cert.LibFlatten.broadcastTo_11_ab_apply, Cert.LibKeepdims.shapeCast_a_a1_apply]
  congr 1
  refine Finset.sum_congr rfl fun u _ => ?_
  rw [mulf_apply, Cert.LayoutReads.broadcastTo_11c_abc_apply, Cert.LayoutReads.shapeCast_a_11a_apply,
    Cert.LibFlatten.shapeCast_a1_a_apply, Cert.LibFlatten.shapeCast_nc_abc_apply _ _ r j u (flatRow r j) rfl,
    tanh_apply, addf_apply]
  refine congrArg₂ (· * ·) (congrArg Ideal.tanh (congrArg₂ (· + ·) ?_ ?_)) rfl
  · exact (Cert.LibMatProduct.matmul_zero_apply _ none rfl rfl rfl rfl rfl rfl _ _ (flatRow r j) u).trans
      (Finset.sum_congr rfl fun k _ => by
        rw [truncf_apply, truncf_apply, Cert.LibFlatten.shapeCast_abc_nc_apply _ _ r j k (flatRow r j) rfl])
  · rw [broadcastTo_1b_ab_apply, shapeCast_a_1a_apply]

/-- The word of -∞. -/
theorem neg_inf_word : Ideal.ofBits .f32 0xFF800000#32 = (⊥ : EReal) := by simp [Ideal.ofBits, Ideal.ieee]

/-- The reset values of the three carried buffers: -∞, 0, 0. -/
theorem reset_m (r : Fin 16) : k0_pay2 (F := Ideal) (ix2 r (0 : Fin 1)) = (⊥ : EReal) := by
  unfold k0_pay2
  rw [shapeCast_self, broadcast_apply]
  exact neg_inf_word

theorem reset_l (r : Fin 16) : k0_pay3 (F := Ideal) (ix2 r (0 : Fin 1)) = (0 : EReal) := by
  unfold k0_pay3
  rw [shapeCast_self, broadcast_apply]
  exact Ideal.ofBits_zero_f32

theorem reset_a (r : Fin 16) (d : Fin 256) : k0_pay4 (F := Ideal) (ix2 r d) = (0 : EReal) := by
  unfold k0_pay4
  rw [shapeCast_self, broadcast_apply]
  exact Ideal.ofBits_zero_f32

set_option backward.isDefEq.respectTransparency.types false in
/-- The running maximum after a chunk, at row `r`: the maximum of the old one and the row's scores. -/
theorem newMax_apply (W : FVec Ideal S256x256 .f32) (wb : FVec Ideal S256 .f32) (V : FVec Ideal S256x1 .f32) (vb : FVec Ideal S1 .f32)
    (xc : FVec Ideal S16x256x256 .f32) (m : FVec Ideal S16x1 .f32) (r : Fin 16) :
    k0_pay8 (F := Ideal) W wb V vb xc m (ix2 r (0 : Fin 1))
      = max (m (ix2 r (0 : Fin 1))) ((Finset.univ : Finset (Fin 256)).fold max (⊥ : EReal)
          fun j => k0_pay7 (F := Ideal) W wb V vb xc (ix2 r j)) := by
  unfold k0_pay8
  dsimp only
  rw [maximumf_apply, Cert.LibKeepdims.shapeCast_a_a1_apply, Cert.LibRowReduce.rowMax_apply, neg_inf_word]

theorem stepM_eq (W : FVec Ideal S256x256 .f32) (wb : FVec Ideal S256 .f32) (V : FVec Ideal S256x1 .f32) (vb : FVec Ideal S1 .f32)
    (xc : FVec Ideal S16x256x256 .f32) (m : FVec Ideal S16x1 .f32) :
    stepM (F := Ideal) W wb V vb xc m = k0_pay8 (F := Ideal) W wb V vb xc m := by
  unfold stepM k0_pay13
  dsimp only
  rw [shapeCast_self]

set_option backward.isDefEq.respectTransparency.types false in
/-- The normaliser after a chunk, at row `r`. -/
theorem stepL_apply (W : FVec Ideal S256x256 .f32) (wb : FVec Ideal S256 .f32) (V : FVec Ideal S256x1 .f32) (vb : FVec Ideal S1 .f32)
    (xc : FVec Ideal S16x256x256 .f32) (m l : FVec Ideal S16x1 .f32) (r : Fin 16) :
    stepL (F := Ideal) W wb V vb xc m l (ix2 r (0 : Fin 1))
      = Ideal.exp (m (ix2 r (0 : Fin 1)) - k0_pay8 (F := Ideal) W wb V vb xc m (ix2 r (0 : Fin 1))) * l (ix2 r (0 : Fin 1))
        + ∑ j : Fin 256, Ideal.exp (k0_pay7 (F := Ideal) W wb V vb xc (ix2 r j)
            - k0_pay8 (F := Ideal) W wb V vb xc m (ix2 r (0 : Fin 1))) := by
  unfold stepL k0_pay11 k0_pay9 k0_pay10
  dsimp only
  rw [shapeCast_self, addf_apply, mulf_apply, exp_apply, subf_apply, Cert.LibKeepdims.shapeCast_a_a1_apply,
    Cert.LibRowReduce.rowSum_apply]
  congr 1
  refine Finset.sum_congr rfl fun j _ => ?_
  rw [exp_apply, subf_apply, Cert.LibKeepdims.broadcastTo_a1_ab_apply]

/-- The accumulator after a chunk, at row `r`, feature `d`. -/
theorem stepA_apply (W : FVec Ideal S256x256 .f32) (wb : FVec Ideal S256 .f32) (V : FVec Ideal S256x1 .f32) (vb : FVec Ideal S1 .f32)
    (xc : FVec Ideal S16x256x256 .f32) (m : FVec Ideal S16x1 .f32) (a : FVec Ideal S16x256 .f32) (r : Fin 16) (d : Fin 256) :
    stepA (F := Ideal) W wb V vb xc m a (ix2 r d)
      = Ideal.exp (m (ix2 r (0 : Fin 1)) - k0_pay8 (F := Ideal) W wb V vb xc m (ix2 r (0 : Fin 1))) * a (ix2 r d)
        + ∑ j : Fin 256, Ideal.exp (k0_pay7 (F := Ideal) W wb V vb xc (ix2 r j)
            - k0_pay8 (F := Ideal) W wb V vb xc m (ix2 r (0 : Fin 1))) * xc (ix3 r j d) := by
  unfold stepA k0_pay12 k0_pay9 k0_pay10
  dsimp only
  rw [shapeCast_self, addf_apply, mulf_apply, Cert.LibKeepdims.broadcastTo_a1_ab_apply, exp_apply, subf_apply]
  refine congrArg₂ (· + ·) rfl ?_
  refine (Cert.LayoutReads.multiReduction_add_axis1_apply _ _ _ _ _ r d).trans ?_
  refine Finset.sum_congr rfl fun j _ => ?_
  rw [mulf_apply, Cert.LayoutReads.broadcastTo_ab1_abc_apply, Cert.LayoutReads.shapeCast_ab_ab1_apply, exp_apply, subf_apply,
    Cert.LibKeepdims.broadcastTo_a1_ab_apply]

/-- The output block at a row's last point: accumulator over normaliser. -/
theorem out_apply (a : FVec Ideal S16x256 .f32) (l : FVec Ideal S16x1 .f32) (r : Fin 16) (d : Fin 256) :
    k0_pay1 (F := Ideal) a l (ix2 r d) = Ideal.div (a (ix2 r d)) (l (ix2 r (0 : Fin 1))) := by
  unfold k0_pay1
  rw [divf_apply, Cert.LibKeepdims.broadcastTo_a1_ab_apply]

end Cert.KernelIdeal.Reads

end
-- ==== Proof.OnlineSoftmax.lean ====
/-
  The online-softmax recurrence on the extended reals.

  A row of real scores `L s` and real values `X s` is consumed chunk by chunk. The running state is a maximum `m`, a
  normaliser `l` and an accumulator `a`; one chunk of `k` scores replaces it by
      m' = max m (max of the chunk),   α = exp (m - m'),   p j = exp (L j - m'),
      l' = α · l + ∑ p j,              a' = α · a + ∑ p j · X j,
  starting from `m = -∞`, `l = a = 0`. After any positive number of scores the state is
      m = μ,   l = ∑ exp (L s - μ),   a = ∑ exp (L s - μ) · X s        for some REAL number μ
  (`Inv`), and the quotient `a / l` does not depend on which real `μ` it is: a softmax is invariant under a common
  shift of its scores (`attn_shift`). So the quotient is the softmax-weighted mean `attn L X n`, and so is the
  direct formula `∑ (exp (L t - M) / ∑ exp (L u - M)) · X t` for any real `M` (`direct_eq`). Only the very first step
  meets an infinity: `exp (-∞ - μ') = 0` multiplies the zero state.
-/
import Mathlib
import Idealize.ShloMosaic.PureOps.Ideal

noncomputable section

namespace Cert.OnlineSoftmax

open Idealize.ShloMosaic Finset

/-- The coercion from the reals commutes with a finite sum. -/
theorem coe_sum {ι : Type*} (t : Finset ι) (g : ι → ℝ) :
    (∑ i ∈ t, ((g i : ℝ) : EReal)) = ((∑ i ∈ t, g i : ℝ) : EReal) := by
  classical
  induction t using Finset.induction_on with
  | empty => simp
  | insert a t ha ih => rw [Finset.sum_insert ha, Finset.sum_insert ha, ih, EReal.coe_add]

/-- The exponential of a real number, on the extended reals. -/
theorem exp_coe (r : ℝ) : Ideal.exp (r : EReal) = ((Real.exp r : ℝ) : EReal) := rfl

theorem exp_bot : Ideal.exp (⊥ : EReal) = 0 := rfl

/-- The hyperbolic tangent of a real number, on the extended reals. -/
theorem tanh_coe (r : ℝ) : Ideal.tanh (r : EReal) = ((Real.tanh r : ℝ) : EReal) := rfl

/-- The normaliser of the first `n` scores shifted by `μ`. -/
def wsum (L : ℕ → ℝ) (μ : ℝ) (n : ℕ) : ℝ := ∑ s ∈ range n, Real.exp (L s - μ)

/-- The weighted sum of the first `n` values, scores shifted by `μ`. -/
def wxsum (L X : ℕ → ℝ) (μ : ℝ) (n : ℕ) : ℝ := ∑ s ∈ range n, Real.exp (L s - μ) * X s

/-- The softmax-weighted mean of the first `n` values. -/
def attn (L X : ℕ → ℝ) (n : ℕ) : ℝ := wxsum L X 0 n / wsum L 0 n

/-- A common shift of the scores cancels between the weighted sum and the normaliser. -/
theorem attn_shift (L X : ℕ → ℝ) (μ : ℝ) (n : ℕ) : wxsum L X μ n / wsum L μ n = attn L X n := by
  unfold attn wxsum wsum
  have h : ∀ s, Real.exp (L s - μ) = Real.exp (-μ) * Real.exp (L s - 0) := fun s => by
    rw [← Real.exp_add]; congr 1; ring
  simp only [h, mul_assoc, ← Finset.mul_sum]
  exact mul_div_mul_left _ _ (Real.exp_pos _).ne'

theorem wsum_pos (L : ℕ → ℝ) (μ : ℝ) {n : ℕ} (hn : 0 < n) : 0 < wsum L μ n :=
  Finset.sum_pos (fun _ _ => Real.exp_pos _) ⟨0, mem_range.mpr hn⟩

/-- Moving the shift from `μ` to `μ'` multiplies every weight by `exp (μ - μ')`. -/
theorem wsum_rescale (L : ℕ → ℝ) (μ μ' : ℝ) (n : ℕ) : Real.exp (μ - μ') * wsum L μ n = wsum L μ' n := by
  unfold wsum
  rw [Finset.mul_sum]
  refine Finset.sum_congr rfl fun s _ => ?_
  rw [← Real.exp_add]; congr 1; ring

theorem wxsum_rescale (L X : ℕ → ℝ) (μ μ' : ℝ) (n : ℕ) : Real.exp (μ - μ') * wxsum L X μ n = wxsum L X μ' n := by
  unfold wxsum
  rw [Finset.mul_sum]
  refine Finset.sum_congr rfl fun s _ => ?_
  rw [← mul_assoc, ← Real.exp_add]; congr 2; ring

theorem wsum_add (L : ℕ → ℝ) (μ : ℝ) (n k : ℕ) :
    wsum L μ (n + k) = wsum L μ n + ∑ j : Fin k, Real.exp (L (n + j.val) - μ) := by
  unfold wsum
  rw [Finset.sum_range_add, Fin.sum_univ_eq_sum_range (fun j => Real.exp (L (n + j) - μ))]

theorem wxsum_add (L X : ℕ → ℝ) (μ : ℝ) (n k : ℕ) :
    wxsum L X μ (n + k) = wxsum L X μ n + ∑ j : Fin k, Real.exp (L (n + j.val) - μ) * X (n + j.val) := by
  unfold wxsum
  rw [Finset.sum_range_add, Fin.sum_univ_eq_sum_range (fun j => Real.exp (L (n + j) - μ) * X (n + j))]

/-- The running state after the first `n` scores: the initial state, or the three sums at some real shift. -/
def Inv (L X : ℕ → ℝ) (n : ℕ) (m l a : EReal) : Prop :=
  (n = 0 ∧ m = ⊥ ∧ l = 0 ∧ a = 0)
    ∨ (0 < n ∧ ∃ μ : ℝ, m = (μ : EReal) ∧ l = ((wsum L μ n : ℝ) : EReal) ∧ a = ((wxsum L X μ n : ℝ) : EReal))

theorem Inv.init (L X : ℕ → ℝ) : Inv L X 0 ⊥ 0 0 := Or.inl ⟨rfl, rfl, rfl, rfl⟩

/-- One chunk of `k` scores keeps the invariant. -/
theorem Inv.step {L X : ℕ → ℝ} {n k : ℕ} (hk : 0 < k) {m l a : EReal} (h : Inv L X n m l a)
    (m' α : EReal) (p : Fin k → EReal)
    (hm' : m' = max m ((univ : Finset (Fin k)).fold max (⊥ : EReal) fun j => ((L (n + j.val) : ℝ) : EReal)))
    (hα : α = Ideal.exp (m - m'))
    (hp : ∀ j, p j = Ideal.exp (((L (n + j.val) : ℝ) : EReal) - m')) :
    Inv L X (n + k) m' (α * l + ∑ j, p j) (α * a + ∑ j, p j * ((X (n + j.val) : ℝ) : EReal)) := by
  have hm_lt : m < ⊤ := by
    rcases h with ⟨_, rfl, _, _⟩ | ⟨_, μ, rfl, _, _⟩
    · exact bot_lt_top
    · exact EReal.coe_lt_top μ
  have hcm_lt : (univ : Finset (Fin k)).fold max (⊥ : EReal) (fun j => ((L (n + j.val) : ℝ) : EReal)) < ⊤ :=
    (Finset.fold_max_lt _).mpr ⟨bot_lt_top, fun j _ => EReal.coe_lt_top _⟩
  have hcm_ge : ((L (n + 0) : ℝ) : EReal)
      ≤ (univ : Finset (Fin k)).fold max (⊥ : EReal) (fun j => ((L (n + j.val) : ℝ) : EReal)) :=
    (Finset.le_fold_max _).mpr (Or.inr ⟨⟨0, hk⟩, mem_univ _, le_rfl⟩)
  have htop : m' ≠ ⊤ := by rw [hm']; exact (max_lt hm_lt hcm_lt).ne
  have hbot : m' ≠ ⊥ := by
    rw [hm']
    exact (lt_of_lt_of_le (EReal.bot_lt_coe _) (le_trans hcm_ge (le_max_right _ _))).ne'
  lift m' to ℝ using ⟨htop, hbot⟩ with μ'
  have hp' : ∀ j, p j = ((Real.exp (L (n + j.val) - μ') : ℝ) : EReal) := fun j => by
    rw [hp j, ← EReal.coe_sub, exp_coe]
  have hs1 : ∑ j, p j = ((∑ j : Fin k, Real.exp (L (n + j.val) - μ') : ℝ) : EReal) := by
    rw [← coe_sum]; exact Finset.sum_congr rfl fun j _ => hp' j
  have hs2 : ∑ j, p j * ((X (n + j.val) : ℝ) : EReal)
      = ((∑ j : Fin k, Real.exp (L (n + j.val) - μ') * X (n + j.val) : ℝ) : EReal) := by
    rw [← coe_sum]; exact Finset.sum_congr rfl fun j _ => by rw [hp' j, ← EReal.coe_mul]
  refine Or.inr ⟨by omega, μ', rfl, ?_, ?_⟩
  · rcases h with ⟨rfl, rfl, rfl, rfl⟩ | ⟨_, μ, rfl, rfl, rfl⟩
    · rw [mul_zero, zero_add, hs1, wsum_add]
      simp [wsum]
    · rw [hα, ← EReal.coe_sub, exp_coe, ← EReal.coe_mul, hs1, ← EReal.coe_add, wsum_rescale, wsum_add]
  · rcases h with ⟨rfl, rfl, rfl, rfl⟩ | ⟨_, μ, rfl, rfl, rfl⟩
    · rw [mul_zero, zero_add, hs2, wxsum_add]
      simp [wxsum]
    · rw [hα, ← EReal.coe_sub, exp_coe, ← EReal.coe_mul, hs2, ← EReal.coe_add, wxsum_rescale, wxsum_add]

/-- After a positive number of scores the quotient of accumulator and normaliser is the softmax-weighted mean. -/
theorem Inv.div_eq {L X : ℕ → ℝ} {n : ℕ} (hn : 0 < n) {m l a : EReal} (h : Inv L X n m l a) :
    Ideal.div a l = ((attn L X n : ℝ) : EReal) := by
  rcases h with ⟨rfl, _⟩ | ⟨_, μ, _, rfl, rfl⟩
  · omega
  · rw [Ideal.div_coe (wsum_pos L μ hn).ne', ← EReal.coe_mul, ← attn_shift L X μ n]
    congr 1
    rw [mul_one_div]

/-- The direct formula: each weight normalised first, then the weighted sum, at any real shift `M`. -/
theorem direct_eq (L X : ℕ → ℝ) {N : ℕ} (hN : 0 < N) (M : EReal) (htop : M ≠ ⊤) (hbot : M ≠ ⊥) :
    (0 : EReal) + ∑ t : Fin N, Ideal.div (Ideal.exp (((L t.val : ℝ) : EReal) - M))
        ((0 : EReal) + ∑ u : Fin N, Ideal.exp (((L u.val : ℝ) : EReal) - M)) * ((X t.val : ℝ) : EReal)
      = ((attn L X N : ℝ) : EReal) := by
  lift M to ℝ using ⟨htop, hbot⟩ with μ
  have hden : (0 : EReal) + ∑ u : Fin N, Ideal.exp (((L u.val : ℝ) : EReal) - (μ : EReal)) = ((wsum L μ N : ℝ) : EReal) := by
    rw [zero_add]
    have : ∀ u : Fin N, Ideal.exp (((L u.val : ℝ) : EReal) - (μ : EReal)) = ((Real.exp (L u.val - μ) : ℝ) : EReal) :=
      fun u => by rw [← EReal.coe_sub, exp_coe]
    rw [Finset.sum_congr rfl fun u _ => this u, coe_sum, Fin.sum_univ_eq_sum_range (fun s => Real.exp (L s - μ))]
    rfl
  rw [hden, zero_add]
  have hterm : ∀ t : Fin N, Ideal.div (Ideal.exp (((L t.val : ℝ) : EReal) - (μ : EReal))) ((wsum L μ N : ℝ) : EReal)
        * ((X t.val : ℝ) : EReal) = ((Real.exp (L t.val - μ) * X t.val / wsum L μ N : ℝ) : EReal) := fun t => by
    rw [Ideal.div_coe (wsum_pos L μ hN).ne', ← EReal.coe_sub, exp_coe, ← EReal.coe_mul, ← EReal.coe_mul]
    congr 1
    rw [mul_one_div, div_mul_eq_mul_div]
  rw [Finset.sum_congr rfl fun t _ => hterm t, coe_sum, ← attn_shift L X μ N]
  congr 1
  rw [← Finset.sum_div, Fin.sum_univ_eq_sum_range (fun s => Real.exp (L s - μ) * X s)]
  rfl

end Cert.OnlineSoftmax

end
-- ==== Proof.Recurrence.lean ====
/-
  One grid point keeps the online-softmax invariant, row by row.

  If row `r` of a chunk holds the scores `L (n + j)` and, at feature `d`, the values `X (n + j)` (`j < 256`), the chunk
  step takes a state that satisfies the invariant at `n` to one that satisfies it at `n + 256` (`chunk_inv`); a grid
  point is two chunks (`point_inv`). At a row's last point the output block's entry is accumulator over normaliser,
  the softmax-weighted mean (`out_eq`).
-/
import proofs.«181928_j22041772163436_2_alg».proof.Proof.Reads
import proofs.«181928_j22041772163436_2_alg».proof.Proof.OnlineSoftmax

noncomputable section

open Idealize.ShloMosaic Idealize.ShloMosaic.TcCoe Idealize.ShloMosaic.ValueIdx

namespace Cert.KernelIdeal.Recurrence

open Cert.KernelIdeal Cert.KernelIdeal.Gen Cert.KernelIdeal.Body Cert.KernelIdeal.Reads Cert.OnlineSoftmax

/-- One chunk. -/
theorem chunk_inv (L X : ℕ → ℝ) (n : ℕ) (W : FVec Ideal S256x256 .f32) (wb : FVec Ideal S256 .f32) (V : FVec Ideal S256x1 .f32)
    (vb : FVec Ideal S1 .f32) (xc : FVec Ideal S16x256x256 .f32) (m l : FVec Ideal S16x1 .f32) (a : FVec Ideal S16x256 .f32)
    (r : Fin 16) (d : Fin 256)
    (hsc : ∀ j : Fin 256, k0_pay7 (F := Ideal) W wb V vb xc (ix2 r j) = ((L (n + j.val) : ℝ) : EReal))
    (hx : ∀ j : Fin 256, xc (ix3 r j d) = ((X (n + j.val) : ℝ) : EReal))
    (h : Inv L X n (m (ix2 r (0 : Fin 1))) (l (ix2 r (0 : Fin 1))) (a (ix2 r d))) :
    Inv L X (n + 256) (stepM (F := Ideal) W wb V vb xc m (ix2 r (0 : Fin 1)))
      (stepL (F := Ideal) W wb V vb xc m l (ix2 r (0 : Fin 1))) (stepA (F := Ideal) W wb V vb xc m a (ix2 r d)) := by
  rw [stepM_eq, stepL_apply, stepA_apply]
  have hsum : ∑ j : Fin 256, Ideal.exp (k0_pay7 (F := Ideal) W wb V vb xc (ix2 r j)
        - k0_pay8 (F := Ideal) W wb V vb xc m (ix2 r (0 : Fin 1))) * xc (ix3 r j d)
      = ∑ j : Fin 256, Ideal.exp (k0_pay7 (F := Ideal) W wb V vb xc (ix2 r j)
        - k0_pay8 (F := Ideal) W wb V vb xc m (ix2 r (0 : Fin 1))) * ((X (n + j.val) : ℝ) : EReal) :=
    Finset.sum_congr rfl fun j _ => by rw [hx j]
  rw [hsum]
  exact Inv.step (k := 256) (by norm_num) h _ _
    (fun j => Ideal.exp (k0_pay7 (F := Ideal) W wb V vb xc (ix2 r j) - k0_pay8 (F := Ideal) W wb V vb xc m (ix2 r (0 : Fin 1))))
    (by rw [newMax_apply, show (fun j => k0_pay7 (F := Ideal) W wb V vb xc (ix2 r j)) = fun j : Fin 256 => ((L (n + j.val) : ℝ) : EReal) from funext hsc])
    rfl
    (fun j => by rw [hsc j])

/-- One grid point: the tile's first 256 steps, then its last 256. -/
theorem point_inv (L X : ℕ → ℝ) (n : ℕ) (W : FVec Ideal S256x256 .f32) (wb : FVec Ideal S256 .f32) (V : FVec Ideal S256x1 .f32)
    (vb : FVec Ideal S1 .f32) (x0 : FVec Ideal S16x512x256 .f32) (m l : FVec Ideal S16x1 .f32) (a : FVec Ideal S16x256 .f32)
    (r : Fin 16) (d : Fin 256)
    (hsc0 : ∀ j : Fin 256, k0_pay7 (F := Ideal) W wb V vb (chunk0 (F := Ideal) x0) (ix2 r j) = ((L (n + j.val) : ℝ) : EReal))
    (hsc1 : ∀ j : Fin 256, k0_pay7 (F := Ideal) W wb V vb (chunk1 (F := Ideal) x0) (ix2 r j) = ((L (n + 256 + j.val) : ℝ) : EReal))
    (hx0 : ∀ j : Fin 256, chunk0 (F := Ideal) x0 (ix3 r j d) = ((X (n + j.val) : ℝ) : EReal))
    (hx1 : ∀ j : Fin 256, chunk1 (F := Ideal) x0 (ix3 r j d) = ((X (n + 256 + j.val) : ℝ) : EReal))
    (h : Inv L X n (m (ix2 r (0 : Fin 1))) (l (ix2 r (0 : Fin 1))) (a (ix2 r d))) :
    Inv L X (n + 512) (pointM (F := Ideal) W wb V vb x0 m (ix2 r (0 : Fin 1)))
      (pointL (F := Ideal) W wb V vb x0 m l (ix2 r (0 : Fin 1))) (pointA (F := Ideal) W wb V vb x0 m a (ix2 r d)) := by
  have h1 := chunk_inv L X n W wb V vb (chunk0 (F := Ideal) x0) m l a r d hsc0 hx0 h
  have h2 := chunk_inv L X (n + 256) W wb V vb (chunk1 (F := Ideal) x0) (stepM (F := Ideal) W wb V vb (chunk0 (F := Ideal) x0) m)
    (stepL (F := Ideal) W wb V vb (chunk0 (F := Ideal) x0) m l) (stepA (F := Ideal) W wb V vb (chunk0 (F := Ideal) x0) m a) r d hsc1 hx1 h1
  rw [show n + 256 + 256 = n + 512 by omega] at h2
  exact h2

/-- The output entry at a row's last point. -/
theorem out_eq (L X : ℕ → ℝ) {n : ℕ} (hn : 0 < n) (a : FVec Ideal S16x256 .f32) (l : FVec Ideal S16x1 .f32) (mv : EReal)
    (r : Fin 16) (d : Fin 256) (h : Inv L X n mv (l (ix2 r (0 : Fin 1))) (a (ix2 r d))) :
    k0_pay1 (F := Ideal) a l (ix2 r d) = ((attn L X n : ℝ) : EReal) := by
  rw [out_apply]
  exact h.div_eq hn

end Cert.KernelIdeal.Recurrence

end
-- ==== Proof.BlockReads.lean ====
/-
  The windows' blocks read at an index.

  Grid point `t` (of 32: 4 tile rows of 16 batch rows, 8 time tiles of 512 steps, the time tile moving fastest) stages
  block `(t / 8, t % 8, 0)` of the input: entry `(r, s, k)` of the block is the input at batch row `16 · (t / 8) + r`,
  time step `512 · (t % 8) + s`, feature `k`. The four parameter arrays are staged whole. A chunk is the tile's
  first or last 256 steps.
-/
import proofs.«181928_j22041772163436_2_alg».proof.Proof.Gen.KernelIdeal.Frame
import proofs.«181928_j22041772163436_2_alg».proof.Proof.Body
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.BlockReads

open Cert.KernelIdeal Cert.KernelIdeal.Gen Cert.KernelIdeal.Body

variable {F : FTy → Type} [FloatOps F]
variable (m : (ℓ : Loc nD τ sig) → Buf (Elt F) ℓ)

/-- The block indices of the six windows at every grid point, decided once over the grid. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val / 8 ∧ win0_5.index t (1 : Fin 2) = 0 :=
  (by decide +kernel : ∀ t : Fin grid0.N, _)

/-- The batch row of tile row `t / 8`'s local row `r`. -/
def brow (t : Fin cfg0.N) (r : Fin 16) : Fin 64 :=
  ⟨16 * (t.val / 8) + r.val, by have := t.isLt; have hN : cfg0.N = 32 := N_0; have := r.isLt; omega⟩

/-- The time step of time tile `t % 8`'s local step `s`. -/
def tstep (t : Fin cfg0.N) (s : Fin 512) : Fin 4096 :=
  ⟨512 * (t.val % 8) + s.val, by have := s.isLt; omega⟩

/-- The input block at point `t`. -/
theorem iblk0_apply (c : Dev nD) (t : Fin cfg0.N) (r : Fin 16) (s : Fin 512) (k : Fin 256) :
    (iblk m c 0 t : Vec F S16x512x256 .f32) (ix3 r s k)
      = m ((c : Thread nD τ).loc main_arg0) (ix3 (brow t r) (tstep t s) k) := by
  unfold iblk
  rw [View.read_apply]
  show V m c main_arg0 _ = m ((c : Thread nD τ).loc main_arg0) _
  unfold V
  congr 1
  funext a
  apply Fin.ext
  match a with
  | ⟨0, _⟩ => show win0_0.index t 0 * 16 + 1 * r.val = 16 * (t.val / 8) + r.val; rw [(idx_facts t).1]; omega
  | ⟨1, _⟩ => show win0_0.index t 1 * 512 + 1 * s.val = 512 * (t.val % 8) + s.val; rw [(idx_facts t).2.1]; omega
  | ⟨2, _⟩ => show win0_0.index t 2 * 256 + 1 * k.val = k.val; rw [(idx_facts t).2.2.1]; omega

/-- The dense layer's weight matrix, staged whole. -/
theorem iblk1_apply (c : Dev nD) (t : Fin cfg0.N) (k u : Fin 256) :
    (iblk m c 1 t : Vec F S256x256 .f32) (ix2 k u) = m ((c : Thread nD τ).loc main_arg1) (ix2 k u) := by
  unfold iblk
  rw [View.read_apply]
  show V m c main_arg1 _ = m ((c : Thread nD τ).loc main_arg1) _
  unfold V
  congr 1
  funext a
  apply Fin.ext
  match a with
  | ⟨0, _⟩ => show win0_1.index t 0 * 256 + 1 * k.val = k.val; rw [(idx_facts t).2.2.2.1]; omega
  | ⟨1, _⟩ => show win0_1.index t 1 * 256 + 1 * u.val = u.val; rw [(idx_facts t).2.2.2.2.1]; omega

/-- The dense layer's bias, staged whole. -/
theorem iblk2_apply (c : Dev nD) (t : Fin cfg0.N) (u : Fin 256) :
    (iblk m c 2 t : Vec F S256 .f32) (ix1 u) = m ((c : Thread nD τ).loc main_arg2) (ix1 u) := by
  unfold iblk
  rw [View.read_apply]
  show V m c main_arg2 _ = m ((c : Thread nD τ).loc main_arg2) _
  unfold V
  congr 1
  funext a
  apply Fin.ext
  match a with
  | ⟨0, _⟩ => show win0_2.index t 0 * 256 + 1 * u.val = u.val; rw [(idx_facts t).2.2.2.2.2.1]; omega

/-- The score vector, staged whole. -/
theorem iblk3_apply (c : Dev nD) (t : Fin cfg0.N) (u : Fin 256) (z : Fin 1) :
    (iblk m c 3 t : Vec F S256x1 .f32) (ix2 u z) = m ((c : Thread nD τ).loc main_arg3) (ix2 u z) := by
  unfold iblk
  rw [View.read_apply]
  show V m c main_arg3 _ = m ((c : Thread nD τ).loc main_arg3) _
  unfold V
  congr 1
  funext a
  apply Fin.ext
  match a with
  | ⟨0, _⟩ => show win0_3.index t 0 * 256 + 1 * u.val = u.val; rw [(idx_facts t).2.2.2.2.2.2.1]; omega
  | ⟨1, _⟩ => show win0_3.index t 1 * 1 + 1 * z.val = z.val; rw [(idx_facts t).2.2.2.2.2.2.2.1]; omega

/-- The score bias, staged whole. -/
theorem iblk4_apply (c : Dev nD) (t : Fin cfg0.N) (z : Fin 1) :
    (iblk m c 4 t : Vec F S1 .f32) (ix1 z) = m ((c : Thread nD τ).loc main_arg4) (ix1 z) := by
  unfold iblk
  rw [View.read_apply]
  show V m c main_arg4 _ = m ((c : Thread nD τ).loc main_arg4) _
  unfold V
  congr 1
  funext a
  apply Fin.ext
  match a with
  | ⟨0, _⟩ => show win0_4.index t 0 * 1 + 1 * z.val = z.val; rw [(idx_facts t).2.2.2.2.2.2.2.2.1]; omega

/-- A tile's local step in its first / last chunk. -/
def lo (j : Fin 256) : Fin 512 := ⟨j.val, by have := j.isLt; omega⟩
def hi (j : Fin 256) : Fin 512 := ⟨256 + j.val, by have := j.isLt; omega⟩

theorem chunk0_apply (x0 : Vec F S16x512x256 .f32) (r : Fin 16) (j k : Fin 256) :
    chunk0 x0 (ix3 r j k) = x0 (ix3 r (lo j) k) := by
  unfold chunk0
  show x0 _ = x0 _
  congr 1
  funext a
  apply Fin.ext
  match a with
  | ⟨0, _⟩ => show 0 + 1 * r.val = r.val; omega
  | ⟨1, _⟩ => show 0 + 1 * j.val = j.val; omega
  | ⟨2, _⟩ => show 0 + 1 * k.val = k.val; omega

theorem chunk1_apply (x0 : Vec F S16x512x256 .f32) (r : Fin 16) (j k : Fin 256) :
    chunk1 x0 (ix3 r j k) = x0 (ix3 r (hi j) k) := by
  unfold chunk1
  show x0 _ = x0 _
  congr 1
  funext a
  apply Fin.ext
  match a with
  | ⟨0, _⟩ => show 0 + 1 * r.val = r.val; omega
  | ⟨1, _⟩ => show 256 + 1 * j.val = 256 + j.val; omega
  | ⟨2, _⟩ => show 0 + 1 * k.val = k.val; omega

end Cert.KernelIdeal.BlockReads

end
-- ==== Proof.Spec.lean ====
/-
  The specification: attention pooling over time, on real arguments.

  For a batch row `b` the score of time step `t` is
      score b t = ∑ u, tanh ((∑ k, x (b, t, k) · W (k, u)) + wb u) · V (u, 0) + vb 0,
  the weights are the softmax of the scores over the 4096 time steps, and the result at `(b, d)` is the weighted mean of
  `x (b, t, d)` over `t` — `attn` of the score sequence `L b` and the value sequence `X b d`, both indexed by natural
  numbers (a number is read as a time step modulo 4096, so that consecutive chunks are ranges of naturals).
  On the extended reals the score of real entries is the coercion of the real score (`score_coe`): every operation in
  it is total and exact on the reals, and `tanh` keeps real numbers real.
-/
import proofs.«181928_j22041772163436_2_alg».proof.Proof.OnlineSoftmax
import Idealize.ShloMosaic.Lib.ValueIdx

noncomputable section

namespace Cert.Spec

open Idealize.ShloMosaic Idealize.ShloMosaic.ValueIdx Cert.OnlineSoftmax

/-- The time step a natural number names. -/
def tIdx (s : ℕ) : Fin 4096 := ⟨s % 4096, Nat.mod_lt _ (by norm_num)⟩

theorem tIdx_of_lt {s : ℕ} (h : s < 4096) : tIdx s = ⟨s, h⟩ := Fin.ext (Nat.mod_eq_of_lt h)

/-- The five arguments as arrays of real numbers. -/
structure RealArgs where
  x : (⟨3, ![64, 4096, 256]⟩ : Shape).Idx → ℝ
  W : (⟨2, ![256, 256]⟩ : Shape).Idx → ℝ
  wb : (⟨1, ![256]⟩ : Shape).Idx → ℝ
  V : (⟨2, ![256, 1]⟩ : Shape).Idx → ℝ
  vb : (⟨1, ![1]⟩ : Shape).Idx → ℝ

/-- The attention score of batch row `b` at time step `t`. -/
def score (A : RealArgs) (b : Fin 64) (t : Fin 4096) : ℝ :=
  (∑ u : Fin 256, Real.tanh ((∑ k : Fin 256, A.x (ix3 b t k) * A.W (ix2 k u)) + A.wb (ix1 u)) * A.V (ix2 u (0 : Fin 1)))
    + A.vb (ix1 (0 : Fin 1))

/-- Row `b`'s scores as a sequence. -/
def L (A : RealArgs) (b : Fin 64) : ℕ → ℝ := fun s => score A b (tIdx s)

/-- Row `b`'s feature `d` as a sequence. -/
def X (A : RealArgs) (b : Fin 64) (d : Fin 256) : ℕ → ℝ := fun s => A.x (ix3 b (tIdx s) d)

/-- The result array: the softmax-weighted mean over the 4096 time steps. -/
def G (A : RealArgs) : (⟨2, ![64, 256]⟩ : Shape).Idx → EReal :=
  fun i => ((attn (L A (i 0)) (X A (i 0) (i 1)) 4096 : ℝ) : EReal)

theorem G_apply (A : RealArgs) (b : Fin 64) (d : Fin 256) :
    G A (ix2 b d) = ((attn (L A b) (X A b d) 4096 : ℝ) : EReal) := rfl

/-- The score computed on the extended reals from real entries is the real score. -/
theorem score_coe (A : RealArgs) (b : Fin 64) (t : Fin 4096) (xe : Fin 256 → EReal) (We : Fin 256 → Fin 256 → EReal)
    (wbe Ve : Fin 256 → EReal) (vbe : EReal)
    (hx : ∀ k, xe k = ((A.x (ix3 b t k) : ℝ) : EReal)) (hW : ∀ k u, We k u = ((A.W (ix2 k u) : ℝ) : EReal))
    (hwb : ∀ u, wbe u = ((A.wb (ix1 u) : ℝ) : EReal)) (hV : ∀ u, Ve u = ((A.V (ix2 u (0 : Fin 1)) : ℝ) : EReal))
    (hvb : vbe = ((A.vb (ix1 (0 : Fin 1)) : ℝ) : EReal)) :
    (∑ u : Fin 256, Ideal.tanh ((∑ k : Fin 256, xe k * We k u) + wbe u) * Ve u) + vbe = ((score A b t : ℝ) : EReal) := by
  unfold score
  simp only [hx, hW, hwb, hV, hvb, ← EReal.coe_mul, coe_sum, ← EReal.coe_add, tanh_coe]

end Cert.Spec

end
-- ==== Proof.Running.lean ====
/-
  The carried buffers after every grid point.

  After the point of time tile `t % 8` in tile row `t / 8`, row `r` of the three carried buffers satisfies the
  online-softmax invariant for batch row `16 · (t / 8) + r` at `512 · (t % 8) + 512` time steps: by induction on the
  point, a tile row's first point starting from the reset values and every other point from what the point before
  left. At a tile row's last point (4096 steps) the output block's row is the softmax-weighted mean.
-/
import proofs.«181928_j22041772163436_2_alg».proof.Proof.Pieces
import proofs.«181928_j22041772163436_2_alg».proof.Proof.Recurrence
import proofs.«181928_j22041772163436_2_alg».proof.Proof.BlockReads
import proofs.«181928_j22041772163436_2_alg».proof.Proof.Spec

noncomputable section

open Idealize.ShloMosaic Idealize.ShloMosaic.TcCoe Idealize.SL.Sem Idealize.ShloMosaic.ValueIdx

namespace Cert.KernelIdeal.Running

open Cert.KernelIdeal Cert.KernelIdeal.Gen Cert.KernelIdeal.Body Cert.KernelIdeal.Reads Cert.KernelIdeal.Recurrence
open Cert.KernelIdeal.BlockReads Cert.KernelIdeal.Pieces Cert.Spec Cert.OnlineSoftmax

variable (m : (ℓ : Loc nD τ sig) → Buf (Elt Ideal) ℓ) (c : Dev nD) (A : RealArgs)

/-- The launched argument arrays hold the real arrays `A`. -/
structure RealAt : Prop where
  x : ∀ (b : Fin 64) (t : Fin 4096) (k : Fin 256),
    m ((c : Thread nD τ).loc main_arg0) (ix3 b t k) = ((A.x (ix3 b t k) : ℝ) : EReal)
  W : ∀ (k u : Fin 256), m ((c : Thread nD τ).loc main_arg1) (ix2 k u) = ((A.W (ix2 k u) : ℝ) : EReal)
  wb : ∀ (u : Fin 256), m ((c : Thread nD τ).loc main_arg2) (ix1 u) = ((A.wb (ix1 u) : ℝ) : EReal)
  V : ∀ (u : Fin 256) (z : Fin 1), m ((c : Thread nD τ).loc main_arg3) (ix2 u z) = ((A.V (ix2 u z) : ℝ) : EReal)
  vb : ∀ (z : Fin 1), m ((c : Thread nD τ).loc main_arg4) (ix1 z) = ((A.vb (ix1 z) : ℝ) : EReal)

/-- The scores of real entries are the real scores. -/
theorem scores_real (b : Fin 64) (tt : Fin 4096) (W : FVec Ideal S256x256 .f32) (wb : FVec Ideal S256 .f32)
    (V : FVec Ideal S256x1 .f32) (vb : FVec Ideal S1 .f32) (xc : FVec Ideal S16x256x256 .f32) (r : Fin 16) (j : Fin 256)
    (hxc : ∀ k : Fin 256, xc (ix3 r j k) = ((A.x (ix3 b tt k) : ℝ) : EReal))
    (hW : ∀ k u : Fin 256, W (ix2 k u) = ((A.W (ix2 k u) : ℝ) : EReal))
    (hwb : ∀ u : Fin 256, wb (ix1 u) = ((A.wb (ix1 u) : ℝ) : EReal))
    (hV : ∀ u : Fin 256, V (ix2 u (0 : Fin 1)) = ((A.V (ix2 u (0 : Fin 1)) : ℝ) : EReal))
    (hvb : vb (ix1 (0 : Fin 1)) = ((A.vb (ix1 (0 : Fin 1)) : ℝ) : EReal)) :
    k0_pay7 (F := Ideal) W wb V vb xc (ix2 r j) = ((score A b tt : ℝ) : EReal) := by
  rw [scores_apply]
  exact score_coe A b tt _ _ _ _ _ hxc hW hwb hV hvb

theorem tIdx_lo (t : Fin cfg0.N) (j : Fin 256) : tIdx (512 * (t.val % 8) + j.val) = tstep t (lo j) := by
  rw [tIdx_of_lt (by have := j.isLt; omega)]
  rfl

theorem tIdx_hi (t : Fin cfg0.N) (j : Fin 256) : tIdx (512 * (t.val % 8) + 256 + j.val) = tstep t (hi j) := by
  rw [tIdx_of_lt (by have := j.isLt; omega)]
  apply Fin.ext
  show 512 * (t.val % 8) + 256 + j.val = 512 * (t.val % 8) + (256 + j.val)
  omega

variable {m c A}

/-- A tile's first chunk holds the scores of its row's next 256 time steps … -/
theorem scores_lo (hR : RealAt m c A) (t : Fin cfg0.N) (r : Fin 16) (j : Fin 256) :
    k0_pay7 (F := Ideal) (iblk m c 1 t) (iblk m c 2 t) (iblk m c 3 t) (iblk m c 4 t) (chunk0 (F := Ideal) (iblk m c 0 t)) (ix2 r j)
      = ((L A (brow t r) (512 * (t.val % 8) + j.val) : ℝ) : EReal) := by
  have e : L A (brow t r) (512 * (t.val % 8) + j.val) = score A (brow t r) (tstep t (lo j)) := by
    unfold L; rw [tIdx_lo]
  rw [e]
  exact scores_real A (brow t r) (tstep t (lo j)) (iblk m c 1 t) (iblk m c 2 t) (iblk m c 3 t) (iblk m c 4 t)
    (chunk0 (F := Ideal) (iblk m c 0 t)) r j
    (fun k => (chunk0_apply (F := Ideal) (iblk m c 0 t) r j k).trans ((iblk0_apply m c t r (lo j) k).trans (hR.x _ _ _)))
    (fun k u => (iblk1_apply m c t k u).trans (hR.W k u))
    (fun u => (iblk2_apply m c t u).trans (hR.wb u))
    (fun u => (iblk3_apply m c t u (0 : Fin 1)).trans (hR.V u (0 : Fin 1)))
    ((iblk4_apply m c t (0 : Fin 1)).trans (hR.vb (0 : Fin 1)))

/-- … and its second chunk the 256 after those. -/
theorem scores_hi (hR : RealAt m c A) (t : Fin cfg0.N) (r : Fin 16) (j : Fin 256) :
    k0_pay7 (F := Ideal) (iblk m c 1 t) (iblk m c 2 t) (iblk m c 3 t) (iblk m c 4 t) (chunk1 (F := Ideal) (iblk m c 0 t)) (ix2 r j)
      = ((L A (brow t r) (512 * (t.val % 8) + 256 + j.val) : ℝ) : EReal) := by
  have e : L A (brow t r) (512 * (t.val % 8) + 256 + j.val) = score A (brow t r) (tstep t (hi j)) := by
    unfold L; rw [tIdx_hi]
  rw [e]
  exact scores_real A (brow t r) (tstep t (hi j)) (iblk m c 1 t) (iblk m c 2 t) (iblk m c 3 t) (iblk m c 4 t)
    (chunk1 (F := Ideal) (iblk m c 0 t)) r j
    (fun k => (chunk1_apply (F := Ideal) (iblk m c 0 t) r j k).trans ((iblk0_apply m c t r (hi j) k).trans (hR.x _ _ _)))
    (fun k u => (iblk1_apply m c t k u).trans (hR.W k u))
    (fun u => (iblk2_apply m c t u).trans (hR.wb u))
    (fun u => (iblk3_apply m c t u (0 : Fin 1)).trans (hR.V u (0 : Fin 1)))
    ((iblk4_apply m c t (0 : Fin 1)).trans (hR.vb (0 : Fin 1)))

theorem vals_lo (hR : RealAt m c A) (t : Fin cfg0.N) (r : Fin 16) (d j : Fin 256) :
    chunk0 (F := Ideal) (iblk m c 0 t) (ix3 r j d) = ((X A (brow t r) d (512 * (t.val % 8) + j.val) : ℝ) : EReal) := by
  have e : X A (brow t r) d (512 * (t.val % 8) + j.val) = A.x (ix3 (brow t r) (tstep t (lo j)) d) := by
    unfold X; rw [tIdx_lo]
  rw [e]
  exact (chunk0_apply (F := Ideal) (iblk m c 0 t) r j d).trans ((iblk0_apply m c t r (lo j) d).trans (hR.x _ _ _))

theorem vals_hi (hR : RealAt m c A) (t : Fin cfg0.N) (r : Fin 16) (d j : Fin 256) :
    chunk1 (F := Ideal) (iblk m c 0 t) (ix3 r j d) = ((X A (brow t r) d (512 * (t.val % 8) + 256 + j.val) : ℝ) : EReal) := by
  have e : X A (brow t r) d (512 * (t.val % 8) + 256 + j.val) = A.x (ix3 (brow t r) (tstep t (hi j)) d) := by
    unfold X; rw [tIdx_hi]
  rw [e]
  exact (chunk1_apply (F := Ideal) (iblk m c 0 t) r j d).trans ((iblk0_apply m c t r (hi j) d).trans (hR.x _ _ _))

/-- One point from any state of row `r` that satisfies the invariant at the tile's first step. -/
theorem point_step (hR : RealAt m c A) (t : Fin cfg0.N) (r : Fin 16) (d : Fin 256)
    (mv lv : FVec Ideal S16x1 .f32) (av : FVec Ideal S16x256 .f32)
    (h : Inv (L A (brow t r)) (X A (brow t r) d) (512 * (t.val % 8)) (mv (ix2 r (0 : Fin 1))) (lv (ix2 r (0 : Fin 1))) (av (ix2 r d))) :
    Inv (L A (brow t r)) (X A (brow t r) d) (512 * (t.val % 8) + 512)
      (pointM (F := Ideal) (iblk m c 1 t) (iblk m c 2 t) (iblk m c 3 t) (iblk m c 4 t) (iblk m c 0 t) mv (ix2 r (0 : Fin 1)))
      (pointL (F := Ideal) (iblk m c 1 t) (iblk m c 2 t) (iblk m c 3 t) (iblk m c 4 t) (iblk m c 0 t) mv lv (ix2 r (0 : Fin 1)))
      (pointA (F := Ideal) (iblk m c 1 t) (iblk m c 2 t) (iblk m c 3 t) (iblk m c 4 t) (iblk m c 0 t) mv av (ix2 r d)) :=
  point_inv (L A (brow t r)) (X A (brow t r) d) (512 * (t.val % 8)) (iblk m c 1 t) (iblk m c 2 t) (iblk m c 3 t) (iblk m c 4 t)
    (iblk m c 0 t) mv lv av r d (scores_lo hR t r) (scores_hi hR t r) (vals_lo hR t r d) (vals_hi hR t r d) h

/-- THE INVARIANT after every grid point. -/
theorem running (hR : RealAt m c A) : ∀ (n : ℕ) (hn : n < cfg0.N) (r : Fin 16) (d : Fin 256),
    Inv (L A (brow ⟨n, hn⟩ r)) (X A (brow ⟨n, hn⟩ r) d) (512 * (n % 8) + 512)
      ((outsAt0 m c n hn).2.1 (ix2 r (0 : Fin 1))) ((outsAt0 m c n hn).2.2.1 (ix2 r (0 : Fin 1)))
      ((outsAt0 m c n hn).2.2.2 (ix2 r d)) := by
  intro n
  induction n with
  | zero =>
    intro hn r d
    have h0 : (0 : ℕ) % 8 = 0 := rfl
    have h1 : ¬(0 : ℕ) % 8 = 7 := by decide
    rw [outsAt0_A m c (⟨0, hn⟩ : Fin cfg0.N) h0 h1]
    dsimp only
    rw [piece_A_0, piece_A_1, piece_A_2]
    exact point_step hR (⟨0, hn⟩ : Fin cfg0.N) r d k0_pay2 k0_pay3 k0_pay4
      (by rw [reset_m, reset_l, reset_a]; exact Inv.init _ _)
  | succ n' ih =>
    intro hn r d
    have hN : cfg0.N = 32 := N_0
    have hn' : n' < cfg0.N := by omega
    by_cases h0 : (n' + 1) % 8 = 0
    · have h1 : ¬(n' + 1) % 8 = 7 := by omega
      rw [outsAt0_A m c (⟨n' + 1, hn⟩ : Fin cfg0.N) h0 h1]
      dsimp only
      rw [piece_A_0, piece_A_1, piece_A_2]
      have hz : 512 * ((n' + 1) % 8) = 0 := by omega
      exact point_step hR (⟨n' + 1, hn⟩ : Fin cfg0.N) r d k0_pay2 k0_pay3 k0_pay4
        (by rw [reset_m, reset_l, reset_a]; show Inv _ _ (512 * ((n' + 1) % 8)) _ _ _; rw [hz]; exact Inv.init _ _)
    · have hprev := ih hn' r d
      have hb : brow (⟨n', hn'⟩ : Fin cfg0.N) r = brow (⟨n' + 1, hn⟩ : Fin cfg0.N) r :=
        Fin.ext (by show 16 * (n' / 8) + r.val = 16 * ((n' + 1) / 8) + r.val; omega)
      have hk : 512 * (n' % 8) + 512 = 512 * ((n' + 1) % 8) := by omega
      rw [hb, hk] at hprev
      by_cases h1 : (n' + 1) % 8 = 7
      · rw [outsAt0_C m c (⟨n' + 1, hn⟩ : Fin cfg0.N) h0 h1]
        dsimp only
        rw [piece_C_0, piece_C_1, piece_C_2]
        exact point_step hR (⟨n' + 1, hn⟩ : Fin cfg0.N) r d _ _ _ hprev
      · rw [outsAt0_B m c (⟨n' + 1, hn⟩ : Fin cfg0.N) h0 h1]
        dsimp only
        rw [piece_B_0, piece_B_1, piece_B_2]
        exact point_step hR (⟨n' + 1, hn⟩ : Fin cfg0.N) r d _ _ _ hprev

/-- At a tile row's last point the output block's row `r` is the softmax-weighted mean of batch row `16 · (t / 8) + r`. -/
theorem last_out (hR : RealAt m c A) (t : Fin cfg0.N) (h1 : t.val % 8 = 7) (r : Fin 16) (d : Fin 256) :
    (outsAt0 m c t.val t.isLt).1 (ix2 r d) = G A (ix2 (brow t r) d) := by
  obtain ⟨n, hn⟩ := t
  have hN : cfg0.N = 32 := N_0
  have h0 : ¬n % 8 = 0 := by dsimp only at h1; omega
  obtain ⟨n', rfl⟩ : ∃ n', n = n' + 1 := ⟨n - 1, by omega⟩
  have hn' : n' < cfg0.N := by omega
  have hprev := running hR n' hn' r d
  have hb : brow (⟨n', hn'⟩ : Fin cfg0.N) r = brow (⟨n' + 1, hn⟩ : Fin cfg0.N) r :=
    Fin.ext (by show 16 * (n' / 8) + r.val = 16 * ((n' + 1) / 8) + r.val; dsimp only at h1; omega)
  have hk : 512 * (n' % 8) + 512 = 512 * ((n' + 1) % 8) := by dsimp only at h1; omega
  rw [hb, hk] at hprev
  have hstep := point_step hR (⟨n' + 1, hn⟩ : Fin cfg0.N) r d _ _ _ hprev
  have h4096 : 512 * ((n' + 1) % 8) + 512 = 4096 := by dsimp only at h1; omega
  show (outsAt0 m c (n' + 1) hn).1 (ix2 r d) = _
  rw [outsAt0_C m c (⟨n' + 1, hn⟩ : Fin cfg0.N) h0 h1]
  dsimp only
  rw [piece_C_out, G_apply]
  exact out_eq (L A (brow (⟨n' + 1, hn⟩ : Fin cfg0.N) r)) (X A (brow (⟨n' + 1, hn⟩ : Fin cfg0.N) r) d) (n := 512 * ((n' + 1) % 8) + 512) (by omega) _ _ _ r d hstep
    |>.trans (by rw [h4096])

end Cert.KernelIdeal.Running

end
-- ==== Proof.KernelValue.lean ====
/-
  The kernel's result array.

  Only a tile row's last grid point (time tile 7) writes the output window back: block `(t / 8, 0)`, 16 batch rows by
  256 features, holding the softmax-weighted means of those rows. The four write-backs tile the `[64, 256]` result, so
  the result array after the run is the specification `G` everywhere.
-/
import proofs.«181928_j22041772163436_2_alg».proof.Proof.Running
import proofs.«181928_j22041772163436_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.BlockReads Cert.KernelIdeal.Running Cert.Spec

variable {m : (ℓ : Loc nD τ sig) → Buf (Elt Ideal) ℓ} (ρ : Dev nD → PrngReg) {A : RealArgs}

/-- What a write-back writes is its block of `G`. -/
theorem flushed_eq {c : Dev nD} (hR : RealAt m c A) (t : Fin cfg0.N) (hf : (cfg0.win 5).flush t = true) :
    (dats m 0 c).flushed 5 t = ((cfg0.win 5).blk t).view.read (Elt Ideal) (G A) := by
  have h1 : t.val % 8 = 7 := (flush0_5 t).mp hf
  rw [Cert.KernelIdeal.Value.flushed5]
  funext y
  obtain ⟨r, d, rfl⟩ : ∃ (r : Fin 16) (d : Fin 256), y = ix2 r d := ⟨y 0, y 1, eq_ix2 y⟩
  show (outsAt0 m c t.val t.isLt).1 (ix2 r d) = G A (((cfg0.win 5).blk t).view.emb (ix2 r d))
  rw [last_out hR t h1 r d]
  refine congrArg (G A) (funext fun a => Fin.ext ?_)
  match a with
  | ⟨0, _⟩ => show 16 * (t.val / 8) + r.val = win0_5.index t 0 * 16 + 1 * r.val; rw [(idx_facts t).2.2.2.2.2.2.2.2.2.1]; omega
  | ⟨1, _⟩ => show d.val = win0_5.index t 1 * 256 + 1 * d.val; rw [(idx_facts t).2.2.2.2.2.2.2.2.2.2]; omega

/-- An index of the result is in point `t`'s block iff each coordinate is in the block's range on its axis. -/
theorem mem_blk (t : Fin cfg0.N) (i : S64x256.Idx) :
    i ∈ ((cfg0.win 5).blk t).view.set ↔ ∀ a : Fin 2, win0_5.index t a * S16x256.size a ≤ (i a).val ∧ (i a).val < win0_5.index t a * S16x256.size a + S16x256.size a := by
  show i ∈ ((View.whole main_v0).slice (win0_5.rect t)).set ↔ _
  rw [View.set_slice_whole, Rect.mem_set_unit]
  exact Iff.rfl

/-- Every index of the result lies in the block some tile row's last point writes back. -/
theorem cover (i : S64x256.Idx) : ∃ t : Fin cfg0.N, (cfg0.win 5).flush t = true ∧ i ∈ ((cfg0.win 5).blk t).view.set := by
  have hN : cfg0.N = 32 := N_0
  have hi0 : (i 0).val < 64 := (i 0).isLt
  have hi1 : (i 1).val < 256 := (i 1).isLt
  refine ⟨⟨8 * ((i 0).val / 16) + 7, by omega⟩, (flush0_5 _).mpr (by show (8 * ((i 0).val / 16) + 7) % 8 = 7; omega), ?_⟩
  rw [mem_blk]
  intro a
  obtain ⟨-, -, -, -, -, -, -, -, -, e0, e1⟩ := idx_facts (⟨8 * ((i 0).val / 16) + 7, by omega⟩ : Fin cfg0.N)
  match a with
  | ⟨0, _⟩ =>
    show win0_5.index _ (0 : Fin 2) * 16 ≤ (i 0).val ∧ (i 0).val < win0_5.index _ (0 : Fin 2) * 16 + 16
    rw [e0]; show (8 * ((i 0).val / 16) + 7) / 8 * 16 ≤ (i 0).val ∧ (i 0).val < (8 * ((i 0).val / 16) + 7) / 8 * 16 + 16; omega
  | ⟨1, _⟩ =>
    show win0_5.index _ (1 : Fin 2) * 256 ≤ (i 1).val ∧ (i 1).val < win0_5.index _ (1 : Fin 2) * 256 + 256
    rw [e1]; omega

/-- THE RESULT ARRAY after the run is the specification. -/
theorem final {c : Dev nD} (hR : RealAt m c A) : (dats m 0 c).arrAt 5 cfg0.N = G A :=
  (dats m 0 c).arrAt_eq_of_cover 5 (G A) (fun t hf => flushed_eq hR t hf) cover

end Cert.KernelIdeal.KValue

end
-- ==== Proof.Reference.lean ====
/-
  The reference computes the specification.

  Its program is read one operation at a time: the scores are the dense layer contracted with the score vector plus
  the bias (`ref_score`); their maximum over time, taken from -∞, is a real number because every score is
  (`ref_max_top`, `ref_max_bot`); the weights are `exp (score - maximum)` divided by their sum, and the result is the sum
  over time of weight times feature — the direct softmax formula, which is the softmax-weighted mean.
-/
import proofs.«181928_j22041772163436_2_alg».proof.Proof.Gen.ReferenceIdeal.Read
import proofs.«181928_j22041772163436_2_alg».proof.Proof.Spec
import proofs.«181928_j22041772163436_2_alg».proof.Proof.LibLayoutReads

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.Read Cert.Spec Cert.OnlineSoftmax

variable (A : RealArgs)
variable (x0 : (⟨S64x4096x256, .f32⟩ : BufTy).Contents (Elt Ideal)) (x1 : (⟨S256x256, .f32⟩ : BufTy).Contents (Elt Ideal))
  (x2 : (⟨S256, .f32⟩ : BufTy).Contents (Elt Ideal)) (x3 : (⟨S256x1, .f32⟩ : BufTy).Contents (Elt Ideal))
  (x4 : (⟨S1, .f32⟩ : BufTy).Contents (Elt Ideal))

/-- The argument arrays hold the real arrays `A`. -/
structure RealVals : Prop where
  x : ∀ (b : Fin 64) (t : Fin 4096) (k : Fin 256), x0 (ix3 b t k) = ((A.x (ix3 b t k) : ℝ) : EReal)
  W : ∀ (k u : Fin 256), x1 (ix2 k u) = ((A.W (ix2 k u) : ℝ) : EReal)
  wb : ∀ (u : Fin 256), x2 (ix1 u) = ((A.wb (ix1 u) : ℝ) : EReal)
  V : ∀ (u : Fin 256) (z : Fin 1), x3 (ix2 u z) = ((A.V (ix2 u z) : ℝ) : EReal)
  vb : ∀ (z : Fin 1), x4 (ix1 z) = ((A.vb (ix1 z) : ℝ) : EReal)

/-! ## The index functions of the read lemmas, at coordinates -/

theorem e_l5 (b : Fin 64) (t : Fin 4096) (z : Fin 1) (u : Fin 256) : lidx_main_v5 (ix3 b t z) u = ix3 b t u :=
  funext fun a => Fin.ext (by match a with | ⟨0, _⟩ => rfl | ⟨1, _⟩ => rfl | ⟨2, _⟩ => rfl)
theorem e_r5 (b : Fin 64) (t : Fin 4096) (z : Fin 1) (u : Fin 256) : ridx_main_v5 (ix3 b t z) u = ix2 u z :=
  funext fun a => Fin.ext (by match a with | ⟨0, _⟩ => rfl | ⟨1, _⟩ => rfl)
theorem e_l0 (b : Fin 64) (t : Fin 4096) (u k : Fin 256) : lidx_main_v0 (ix3 b t u) k = ix3 b t k :=
  funext fun a => Fin.ext (by match a with | ⟨0, _⟩ => rfl | ⟨1, _⟩ => rfl | ⟨2, _⟩ => rfl)
theorem e_r0 (b : Fin 64) (t : Fin 4096) (u k : Fin 256) : ridx_main_v0 (ix3 b t u) k = ix2 k u :=
  funext fun a => Fin.ext (by match a with | ⟨0, _⟩ => rfl | ⟨1, _⟩ => rfl)
theorem e_12 (b : Fin 64) (t : Fin 4096) (u : Fin 256) : idx_main_v1 (idx_main_v2 (ix3 b t u)) = ix1 u :=
  funext fun a => Fin.ext (by match a with | ⟨0, _⟩ => rfl)
theorem e_67 (b : Fin 64) (t : Fin 4096) (z : Fin 1) : idx_main_v6 (idx_main_v7 (ix3 b t z)) = ix1 (0 : Fin 1) :=
  funext fun a => Fin.ext (by match a with | ⟨0, _⟩ => rfl)
theorem e_22 (b : Fin 64) (d : Fin 256) (k : Fin 4096) : idx_main_v22 (ix2 b d) k = ix3 b k d :=
  funext fun a => Fin.ext (by match a with | ⟨0, _⟩ => rfl | ⟨1, _⟩ => rfl | ⟨2, _⟩ => rfl)
theorem e_20 (b : Fin 64) (k : Fin 4096) (d : Fin 256) : idx_main_v20 (ix3 b k d) = ix3 b k (0 : Fin 1) :=
  funext fun a => Fin.ext (by match a with | ⟨0, _⟩ => rfl | ⟨1, _⟩ => rfl | ⟨2, _⟩ => rfl)
theorem e_1718 (b : Fin 64) (k : Fin 4096) (z : Fin 1) : idx_main_v17 (idx_main_v18 (ix3 b k z)) = ix2 b (0 : Fin 1) :=
  funext fun a => Fin.ext (by match a with | ⟨0, _⟩ => rfl | ⟨1, _⟩ => rfl)
theorem e_1213 (b : Fin 64) (k : Fin 4096) (z : Fin 1) : idx_main_v12 (idx_main_v13 (ix3 b k z)) = ix2 b (0 : Fin 1) :=
  funext fun a => Fin.ext (by match a with | ⟨0, _⟩ => rfl | ⟨1, _⟩ => rfl)
theorem e_16 (b : Fin 64) (z : Fin 1) (k : Fin 4096) : idx_main_v16 (ix2 b z) k = ix3 b k z :=
  funext fun a => Fin.ext (by match a with | ⟨0, _⟩ => rfl | ⟨1, _⟩ => rfl | ⟨2, _⟩ => rfl)

variable {A x0 x1 x2 x3 x4}

/-- The reference's scores. -/
theorem ref_score (hR : RealVals A x0 x1 x2 x3 x4) (b : Fin 64) (t : Fin 4096) :
    val_main_v8 (F := Ideal) x0 x1 x2 x3 x4 (ix3 b t (0 : Fin 1)) = ((score A b t : ℝ) : EReal) := by
  rw [val_main_v8_apply, val_main_v5_apply, val_main_v7_apply, val_main_v6_apply, e_67]
  refine (congrArg₂ (· + ·) (Finset.sum_congr rfl fun u _ => ?_) rfl).trans
    (score_coe A b t (fun k => x0 (ix3 b t k)) (fun k u => x1 (ix2 k u)) (fun u => x2 (ix1 u))
      (fun u => x3 (ix2 u (0 : Fin 1))) (x4 (ix1 (0 : Fin 1))) (hR.x b t) hR.W hR.wb (fun u => hR.V u 0) (hR.vb 0))
  rw [e_l5, e_r5, val_main_v4_apply, val_main_v3_apply, val_main_v0_apply, val_main_v2_apply, val_main_v1_apply, e_12]
  simp only [e_l0, e_r0]
  rfl

/-- A fold of `max` from -∞ over real numbers is below +∞ … -/
theorem fold_max_lt_top {k : ℕ} (f : Fin k → ℝ) :
    (Finset.univ : Finset (Fin k)).fold max (⊥ : EReal) (fun j => ((f j : ℝ) : EReal)) < ⊤ :=
  (Finset.fold_max_lt _).mpr ⟨bot_lt_top, fun j _ => EReal.coe_lt_top _⟩

/-- … and, over at least one, above -∞. -/
theorem bot_lt_fold_max {k : ℕ} (hk : 0 < k) (f : Fin k → ℝ) :
    ⊥ < (Finset.univ : Finset (Fin k)).fold max (⊥ : EReal) (fun j => ((f j : ℝ) : EReal)) :=
  lt_of_lt_of_le (EReal.bot_lt_coe (f ⟨0, hk⟩)) ((Finset.le_fold_max _).mpr (Or.inr ⟨⟨0, hk⟩, Finset.mem_univ _, le_rfl⟩))

/-- The reference's maximum over time of row `b`'s scores, taken from -∞. -/
theorem ref_max (hR : RealVals A x0 x1 x2 x3 x4) (b : Fin 64) :
    val_main_v11 (F := Ideal) x0 x1 x2 x3 x4 (ix2 b (0 : Fin 1))
      = max (⊥ : EReal) ((Finset.univ : Finset (Fin 4096)).fold max (⊥ : EReal) fun t => ((score A b t : ℝ) : EReal)) := by
  rw [val_main_v11_apply, val_main_v10_apply, val_main_cst_0_apply]
  unfold val_main_v9
  rw [Host.reduce_eq_fold_single FloatOps.maximumf _ _ reducesTo_S64x4096x1_S64x1_d1 (by decide) h_S_, val_main_cst_apply]
  have hf : (val_main_v8 (F := Ideal) x0 x1 x2 x3 x4 ∘ (by decide : S64x4096x1.Reduces [1] S64x1).lift (ix2 b (0 : Fin 1)))
      = fun t : Fin 4096 => ((score A b t : ℝ) : EReal) :=
    funext fun t => (congrArg _ (Cert.LayoutReads.lift_axis1_ix2 _ b (0 : Fin 1) t)).trans (ref_score hR b t)
  rw [hf]
  have hb : (FloatOps.ofBits .f32 0xFF800000#32 : Ideal .f32) = (⊥ : EReal) := by
    show Ideal.ofBits .f32 0xFF800000#32 = ⊥; simp [Ideal.ofBits, Ideal.ieee]
  rw [hb]
  rfl

theorem ref_max_top (hR : RealVals A x0 x1 x2 x3 x4) (b : Fin 64) :
    val_main_v11 (F := Ideal) x0 x1 x2 x3 x4 (ix2 b (0 : Fin 1)) ≠ ⊤ := by
  rw [ref_max hR b]
  exact (max_lt bot_lt_top (fold_max_lt_top _)).ne

theorem ref_max_bot (hR : RealVals A x0 x1 x2 x3 x4) (b : Fin 64) :
    val_main_v11 (F := Ideal) x0 x1 x2 x3 x4 (ix2 b (0 : Fin 1)) ≠ ⊥ := by
  rw [ref_max hR b]
  exact (lt_of_lt_of_le (bot_lt_fold_max (by norm_num) _) (le_max_right _ _)).ne'

/-- The reference's unnormalised weights. -/
theorem ref_exp (hR : RealVals A x0 x1 x2 x3 x4) (b : Fin 64) (t : Fin 4096) :
    val_main_v15 (F := Ideal) x0 x1 x2 x3 x4 (ix3 b t (0 : Fin 1))
      = Ideal.exp (((score A b t : ℝ) : EReal) - val_main_v11 (F := Ideal) x0 x1 x2 x3 x4 (ix2 b (0 : Fin 1))) := by
  rw [val_main_v15_apply, val_main_v14_apply, val_main_v13_apply, val_main_v12_apply, e_1213, ref_score hR b t,
    Ideal.hostUnary_exp_def, Ideal.subf_def]

theorem L_val (b : Fin 64) (t : Fin 4096) : L A b t.val = score A b t := by
  unfold L; rw [tIdx_of_lt t.isLt]

theorem X_val (b : Fin 64) (d : Fin 256) (t : Fin 4096) : X A b d t.val = A.x (ix3 b t d) := by
  unfold X; rw [tIdx_of_lt t.isLt]

/-- THE REFERENCE IS THE SPECIFICATION. -/
theorem ref_eq (hR : RealVals A x0 x1 x2 x3 x4) : val_main_v22 (F := Ideal) x0 x1 x2 x3 x4 = G A := by
  funext i
  obtain ⟨b, d, rfl⟩ : ∃ (b : Fin 64) (d : Fin 256), i = ix2 b d := ⟨i 0, i 1, eq_ix2 i⟩
  rw [G_apply, val_main_v22_apply, val_main_cst_2_apply,
    ← direct_eq (L A b) (X A b d) (N := 4096) (by norm_num) _ (ref_max_top hR b) (ref_max_bot hR b)]
  have hz : (FloatOps.ofBits .f32 0x00000000#32 : Ideal .f32) = (0 : EReal) := Ideal.ofBits_zero_f32
  rw [hz]
  refine congrArg ((0 : EReal) + ·) (Finset.sum_congr rfl fun t _ => ?_)
  rw [e_22, val_main_v21_apply, val_main_v20_apply, e_20, val_main_v19_apply, val_main_v18_apply, val_main_v17_apply,
    e_1718, val_main_v16_apply, val_main_cst_1_apply, hz, ref_exp hR b t, hR.x b t d, L_val, X_val]
  have hs : ∑ u : Fin 4096, val_main_v15 (F := Ideal) x0 x1 x2 x3 x4 (idx_main_v16 (ix2 b (0 : Fin 1)) u)
      = ∑ u : Fin 4096, Ideal.exp (((L A b u.val : ℝ) : EReal) - val_main_v11 (F := Ideal) x0 x1 x2 x3 x4 (ix2 b (0 : Fin 1))) :=
    Finset.sum_congr rfl fun u _ => by rw [e_16, ref_exp hR b u, L_val]
  rw [hs, Ideal.mulf_def, Ideal.hostDivf_def]

end Cert.ReferenceIdeal.RefValue

end
-- ==== Proof.LibFiniteEntry.lean ====
/-
  "The absolute value is below +∞" makes an extended real a real number.

  A test that an array holds finite numbers compares, entry by entry, the absolute value `max v (-v)` with the float
  word `0x7F800000`, which is `+∞` (all exponent bits set, zero fraction, sign clear). An extended real whose absolute
  value is below `⊤` is neither `⊤` (whose absolute value is `⊤`) nor `⊥` (likewise): it is a real number.
-/
import Idealize.ShloMosaic.PureOps.Ideal.Laws

noncomputable section

namespace Cert.FiniteEntry

open Idealize.ShloMosaic

/-- The word the test compares against is `+∞`. -/
theorem inf_word : Ideal.ofBits .f32 0x7F800000#32 = (⊤ : EReal) := by simp [Ideal.ofBits, Ideal.ieee]

/-- An extended real whose absolute value is below `+∞` is a real number. -/
theorem real_of_abs_lt_top (v : EReal) (h : max v (-v) < ⊤) : ∃ r : ℝ, v = r := by
  induction v using EReal.rec with
  | bot => exact absurd h (by simp)
  | coe r => exact ⟨r, rfl⟩
  | top => exact absurd h (by simp)

/-- One entry's test `|v| < +∞` being true (the comparison's bit is 1) makes the entry a real number. -/
theorem real_of_test (v : EReal) (h : Ideal.cmp .olt (max v (-v)) (Ideal.ofBits .f32 0x7F800000#32) = 1#1) :
    ∃ r : ℝ, v = r := by
  rw [inf_word] at h
  refine real_of_abs_lt_top v ?_
  by_contra hn
  simp [Ideal.cmp, hn] at h

end Cert.FiniteEntry

end
-- ==== Proof.Finite.lean ====
/-
  From the precondition to real entries.

  The precondition is the conjunction, over the five float arguments, of "every entry's absolute value is below +∞".
  Each conjunct is an `and`-reduction over all axes of the entrywise comparison, so it gives the comparison at every
  index, and an extended real whose absolute value is below +∞ is a real number.
-/
import proofs.«181928_j22041772163436_2_alg».proof.Pre_finite_inputs
import proofs.«181928_j22041772163436_2_alg».proof.Proof.LibFiniteEntry
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- Under the precondition every entry of every float argument is a real number. -/
theorem real_entries [Cert.Pre_finite_inputs.Facts]
    (a0 : FVec Ideal S64x4096x256 .f32) (a1 : FVec Ideal S256x256 .f32) (a2 : FVec Ideal S256 .f32)
    (a3 : FVec Ideal S256x1 .f32) (a4 : FVec Ideal S1 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  refine ⟨fun i => ?_, fun i => ?_, fun i => ?_, fun i => ?_, fun i => ?_⟩
  · exact Cert.FiniteEntry.real_of_test (a0 i) (Host.reduce_andi_all _ _ _ _ _ h0' i)
  · exact Cert.FiniteEntry.real_of_test (a1 i) (Host.reduce_andi_all _ _ _ _ _ h1 i)
  · exact Cert.FiniteEntry.real_of_test (a2 i) (Host.reduce_andi_all _ _ _ _ _ h2 i)
  · exact Cert.FiniteEntry.real_of_test (a3 i) (Host.reduce_andi_all _ _ _ _ _ h3 i)
  · exact Cert.FiniteEntry.real_of_test (a4 i) (Host.reduce_andi_all _ _ _ _ _ h4 i)

end Cert.Finite

end
-- ==== Proof.lean ====
/-
  Attention pooling over time: a fused online-softmax kernel against the direct softmax formula.

  Both programs compute, for every batch row `b` and feature `d`,
      out (b, d) = ∑ₜ softmaxₜ (score b) · x (b, t, d),     score b t = ∑ᵤ tanh ((x (b, t, ·) · W) u + wb u) · V u + vb,
  over 4096 time steps. The reference takes the maximum of the scores, exponentiates the differences, normalises
  and then sums against the features. The kernel never holds a row's scores at once: it walks the time axis in
  chunks of 256 (two per grid point, eight grid points per tile row of 16 batch rows) and carries a running maximum
  `m`, a normaliser `l` and an accumulator `a`, rescaling `l` and `a` by `exp (m - m')` whenever the maximum moves, and
  divides once at the end.

  On the extended reals, under the precondition that every input is finite, every score is a real number (`tanh`
  keeps reals real, and sums and products of reals are real). After any positive number of steps the kernel's
  state is `m = μ`, `l = ∑ exp (score - μ)`, `a = ∑ exp (score - μ) · x` for a real `μ` — the only infinity is the
  initial `m = -∞`, whose `exp (-∞ - μ') = 0` multiplies the zero state —, and `a / l` does not depend on `μ`: a
  softmax is invariant under a common shift of its scores. So neither side's maximum has to be identified with the
  other's; each only has to be real. The reference's `∑ (e / ∑ e) · x` equals the kernel's `(∑ e · x) / (∑ e)` because
  the normaliser is a positive real number — this is where finiteness is used.

  The three frames are the generated ones (the reference's is its generated run with the result dropped);
  the idealization rewrote nothing, so `preserves` is trivial.
-/
import proofs.«181928_j22041772163436_2_alg».proof.Defs
import proofs.«181928_j22041772163436_2_alg».proof.Proof.Gen.Kernel
import proofs.«181928_j22041772163436_2_alg».proof.Proof.Gen.Kernel.Skeleton
import proofs.«181928_j22041772163436_2_alg».proof.Proof.Gen.Kernel.Launch
import proofs.«181928_j22041772163436_2_alg».proof.Proof.Gen.Kernel.Points
import proofs.«181928_j22041772163436_2_alg».proof.Proof.Gen.Kernel.Frame
import proofs.«181928_j22041772163436_2_alg».proof.Proof.Gen.KernelIdeal
import proofs.«181928_j22041772163436_2_alg».proof.Proof.Gen.KernelIdeal.Skeleton
import proofs.«181928_j22041772163436_2_alg».proof.Proof.Gen.KernelIdeal.Launch
import proofs.«181928_j22041772163436_2_alg».proof.Proof.Gen.KernelIdeal.Points
import proofs.«181928_j22041772163436_2_alg».proof.Proof.Gen.KernelIdeal.Frame
import proofs.«181928_j22041772163436_2_alg».proof.Proof.Gen.ReferenceIdeal
import proofs.«181928_j22041772163436_2_alg».proof.Proof.Gen.Pre_finite_inputs
import proofs.«181928_j22041772163436_2_alg».proof.Proof.Gen.KernelIdeal.Value
import proofs.«181928_j22041772163436_2_alg».proof.Proof.Gen.ReferenceIdeal.Run
import proofs.«181928_j22041772163436_2_alg».proof.Proof.Gen.ReferenceIdeal.Read
import proofs.«181928_j22041772163436_2_alg».proof.Proof.KernelValue
import proofs.«181928_j22041772163436_2_alg».proof.Proof.Reference
import proofs.«181928_j22041772163436_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Spec

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition the launched arguments of device `c` are arrays of real numbers. -/
theorem real_args [Cert.KernelIdeal.Facts] [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ A : RealArgs, Cert.KernelIdeal.Running.RealAt m c A := by
  obtain ⟨h0, h1, h2, h3, h4⟩ := Cert.Finite.real_entries _ _ _ _ _ (hpre c)
  choose f0 hf0 using h0
  choose f1 hf1 using h1
  choose f2 hf2 using h2
  choose f3 hf3 using h3
  choose f4 hf4 using h4
  exact ⟨⟨f0, f1, f2, f3, f4⟩, ⟨fun b t k => hf0 (ix3 b t k), fun k u => hf1 (ix2 k u), fun u => hf2 (ix1 u),
    fun u z => hf3 (ix2 u z), fun z => hf4 (ix1 z)⟩⟩

/-- At the ideal instance both programs end with the specification `G` of the (real) arguments in their result
    arrays: the kernel by the online-softmax invariant carried over the grid, the reference by reading its
    operations one at a time. -/
theorem algebraic [Cert.KernelIdeal.Facts] [Cert.ReferenceIdeal.Facts] [Cert.Pre_finite_inputs.Facts] :
    Cert.algebraic_KernelIdeal_ReferenceIdeal := by
  intro m ρ m' ρ' hpre hagree
  choose A hA using real_args m hpre
  refine ⟨fun c => G (A c), ?_, ?_⟩
  · exact (θ_run Cert.KernelIdeal.defs _ _).mono
      (fun r h c => ⟨(h c).1.trans (Cert.KernelIdeal.KValue.final (hA c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq]
    refine Cert.ReferenceIdeal.RefValue.ref_eq ⟨?_, ?_, ?_, ?_, ?_⟩
    · intro b t k; rw [(hagree c).1]; exact (hA c).x b t k
    · intro k u; rw [(hagree c).2.1]; exact (hA c).W k u
    · intro u; rw [(hagree c).2.2.1]; exact (hA c).wb u
    · intro u z; rw [(hagree c).2.2.2.1]; exact (hA c).V u z
    · intro z; rw [(hagree c).2.2.2.2]; exact (hA c).vb z

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
